-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x1 : Shape := ⟨2, ![128, 1]⟩
abbrev S128x1024 : Shape := ⟨2, ![128, 1024]⟩
abbrev S128x8192 : Shape := ⟨2, ![128, 8192]⟩
abbrev S1024x8192 : Shape := ⟨2, ![1024, 8192]⟩
abbrev S128 : Shape := ⟨1, ![128]⟩

abbrev nBuf : Space → Nat
  | .hbm => 16
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S1x8192, .f32⟩
  | .hbm, ⟨13, _⟩ => ⟨S8192x1024, .bf16⟩
  | .hbm, ⟨14, _⟩ => ⟨S8192x1024, .f32⟩
  | .hbm, ⟨15, _⟩ => ⟨S8192x8192, .f32⟩
  | .local _ .vmem, ⟨0, _⟩ => ⟨S8192x1024, .bf16⟩
  | .local _ .vmem, ⟨1, _⟩ => ⟨S1x8192, .f32⟩
  | .local _ .vmem, ⟨2, _⟩ => ⟨S128x1, .f32⟩
  | .local _ .vmem, ⟨3, _⟩ => ⟨S128x1, .f32⟩
  | .local _ .vmem, ⟨4, _⟩ => ⟨S128x1024, .f32⟩
  | .local _ .vmem, ⟨5, _⟩ => ⟨S128x1024, .f32⟩
  | .local _ .vmem, ⟨6, _⟩ => ⟨S128x8192, .f32⟩
  | .local _ .vmem, ⟨7, _⟩ => ⟨S128x8192, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S1x8192 : S8192x1.ShapeCasts S1x8192
  bitsLt_bf16_f32 : FTy.bits .bf16 < FTy.bits .f32
  h_S128x1024 : 0 < S128x1024.numel
  shapeCasts_S128x1024_S128x1024 : S128x1024.ShapeCasts S128x1024
  inb_S8192x1024_S8192x1024_0_0 : ∀ a, (![0, 0] : Fin 2 → Nat) a + S8192x1024.size a ≤ S8192x1024.size a
  h_S8192x1024 : 0 < S8192x1024.numel
  shapeCasts_S8192x1024_S8192x1024 : S8192x1024.ShapeCasts S8192x1024
  transposes_S8192x1024_p1_0_S1024x8192 : S8192x1024.Transposes [1, 0] S1024x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8192 : S128x1.Broadcasts S128x8192
  broadcasts_S1x8192_S128x8192 : S1x8192.Broadcasts S128x8192
  iota_S128x8192_d0_w32 : S128x8192.Iotas .tc 32 [0]
  iota_S128x8192_d1_w32 : S128x8192.Iotas .tc 32 [1]
  reduces_S128x8192_S128 : S128x8192.Reduces [1] S128
  shapeCasts_S128_S128x1 : S128.ShapeCasts S128x1
  inb_S128x8192_S128x8192_0_0 : ∀ a, (![0, 0] : Fin 2 → Nat) a + S128x8192.size a ≤ S128x8192.size a
  h_S128x8192 : 0 < S128x8192.numel
  inb_S128x1024_S128x1024_0_0 : ∀ a, (![0, 0] : Fin 2 → Nat) a + S128x1024.size a ≤ S128x1024.size a
  dot_S128x1024_S1024x8192_S128x8192_1_0_0_1_n_n_wf : DotDims.WF S128x1024 S1024x8192 S128x8192 [1] [0] [0] [1] [] []
  dot_S128x8192_S8192x1024_S128x1024_1_0_0_1_n_n_wf : DotDims.WF S128x8192 S8192x1024 S128x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x1024.size a ≤ S8192x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x1024.size a ≤ S8192x1024.size a
  hwx0_0 : ∀ i : grid0.Coords, EltTy.bits .bf16 = 32 ∨ (Rect.block (s := S8192x1024) S8192x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S8192x1024.size a
  hwx0_3 : ∀ i : grid0.Coords, EltTy.bits .f32 = 32 ∨ (Rect.block (s := S8192x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x8192.size a ≤ S8192x8192.size a
  hwx0_4 : ∀ i : grid0.Coords, EltTy.bits .f32 = 32 ∨ (Rect.block (s := S8192x8192) S128x8192.size (cc0_transform_4 i) (hinb0_4 i)).WholeWords (EltTy.packing .f32)

variable [Facts₀]

def dot_S128x1024_S1024x8192_S128x8192_1_0_0_1_n_n : DotDims S128x1024 S1024x8192 S128x8192 where
  lhsContracting := [1]
  rhsContracting := [0]
  lhsNonContracting := [0]
  rhsNonContracting := [1]
  lhsBatch := []
  rhsBatch := []
  wf := dot_S128x1024_S1024x8192_S128x8192_1_0_0_1_n_n_wf
def dot_S128x8192_S8192x1024_S128x1024_1_0_0_1_n_n : DotDims S128x8192 S8192x1024 S128x1024 where
  lhsContracting := [1]
  rhsContracting := [0]
  lhsNonContracting := [0]
  rhsNonContracting := [1]
  lhsBatch := []
  rhsBatch := []
  wf := dot_S128x8192_S8192x1024_S128x1024_1_0_0_1_n_n_wf

abbrev win0_0 : Pipeline.Window sig grid0 :=
  Pipeline.Window.ofSpec (Memref.whole main_v6) S8192x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S128x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S128x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩
abbrev S8192x2 : Shape := ⟨2, ![8192, 2]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1024, .f32⟩
  | .hbm, ⟨10, _⟩ => ⟨S8192x1024, .f32⟩
  | .hbm, ⟨11, _⟩ => ⟨S1024x8192, .f32⟩
  | .hbm, ⟨12, _⟩ => ⟨S8192x8192, .f32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S8192x1, .i32⟩
  | .hbm, ⟨30, _⟩ => ⟨S8192x2, .i32⟩
  | .hbm, ⟨31, _⟩ => ⟨S_, .f32⟩
  | .hbm, ⟨32, _⟩ => ⟨S8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192 : S_.BroadcastsInDim S8192 (![] : Fin 0 → Fin S8192.rank)
  concatenates_S8192x1_S8192x1_S8192x2_d1 : Shape.Concatenates [S8192x1, S8192x1] S8192x2 1
  reducesTo_S8192x8192_S8192_d1 : S8192x8192.ReducesTo [1] S8192
  bcast_S8192x1_S8192x8192_0_1 : S8192x1.BroadcastsInDim S8192x8192 (![0, 1] : Fin 2 → Fin S8192x8192.rank)
  dot_S8192x1024_S1024x8192_S8192x8192_1_0_0_1_n_n_wf : DotDims.WF S8192x1024 S1024x8192 S8192x8192 [1] [0] [0] [1] [] []
  scatter_S8192x8192_S8192x2_S8192_n_01_01_1_wf : ScatterDims.WF S8192x8192 S8192x2 S8192 [] [0, 1] [0, 1] 1
  dot_S8192x8192_S8192x1024_S8192x1024_1_0_0_1_n_n_wf : DotDims.WF S8192x8192 S8192x1024 S8192x1024 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.KernelEntry.lean ====
/-
  The kernel body's two stored values, read entry by entry on the extended reals.

  At grid point t the body holds the 128 query rows q (rows 128·t … 128·t + 127 of the key array k), the whole key
  array k [8192, 1024], the inverse norms of its 128 rows as a column c [128, 1] and of all keys as a row ρ [1, 8192].
  For local row r and key j it forms the weight

      w r j = 0                                                  if 128·t + r = j   (the row's own key),
            = exp ((Σ_d q(r,d) · k(j,d)) · c(r,0) · ρ(0,j) - 1)      otherwise,

  stores w r j / Σ_j' w r j' as the attention block, and stores Σ_j (w r j / Σ w) · k(j,d) as the output block.
-/
import proofs.«128488_j86157043957990_2_alg».proof.Proof.Gen.KernelIdeal.Skeleton
import proofs.«128488_j86157043957990_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelEntry

open Cert.KernelIdeal Cert.KernelIdeal.Gen Idealize.ShloMosaic Idealize.ShloMosaic.ValueIdx

/-- The weight of key j for local row r at a grid point whose first row is row 128·t of the key array. -/
def weight (t : ℕ) (q : S128x1024.Idx → EReal) (k : S8192x1024.Idx → EReal) (ρ : S1x8192.Idx → EReal)
    (c : S128x1.Idx → EReal) (r : Fin 128) (j : Fin 8192) : EReal :=
  if 128 * t + r.val = j.val then Ideal.ofBits .f32 0x00000000#32
  else Ideal.exp ((∑ d : Fin 1024, q (ix2 r d) * k (ix2 j d)) * c (ix2 r 0) * ρ (ix2 0 j) - Ideal.ofBits .f32 0x3F800000#32)

/-- The operand indices of the two products at an output index and a contraction index, coordinate by coordinate. -/

theorem lhsA_0 (i : S128x8192.Idx) (q : dot_S128x1024_S1024x8192_S128x8192_1_0_0_1_n_n.contr.Idx) : (dot_S128x1024_S1024x8192_S128x8192_1_0_0_1_n_n.lhsIdx i q 0).val = (i 0).val := by
  unfold DotDims.lhsIdx
  rw [dif_neg (show ¬(0 : Fin S128x1024.rank) ∈ dot_S128x1024_S1024x8192_S128x8192_1_0_0_1_n_n.lhsBatch by decide), dif_pos (show (0 : Fin S128x1024.rank) ∈ dot_S128x1024_S1024x8192_S128x8192_1_0_0_1_n_n.lhsNonContracting by decide)]
  rfl
theorem lhsA_1 (i : S128x8192.Idx) (q : dot_S128x1024_S1024x8192_S128x8192_1_0_0_1_n_n.contr.Idx) : (dot_S128x1024_S1024x8192_S128x8192_1_0_0_1_n_n.lhsIdx i q 1).val = (q ⟨0, by decide⟩).val :=
  dot_S128x1024_S1024x8192_S128x8192_1_0_0_1_n_n.lhsIdx_val_of_single rfl i q
theorem rhsA_0 (i : S128x8192.Idx) (q : dot_S128x1024_S1024x8192_S128x8192_1_0_0_1_n_n.contr.Idx) : (dot_S128x1024_S1024x8192_S128x8192_1_0_0_1_n_n.rhsIdx i q 0).val = (q ⟨0, by decide⟩).val :=
  dot_S128x1024_S1024x8192_S128x8192_1_0_0_1_n_n.rhsIdx_val_of_single rfl i q
theorem rhsA_1 (i : S128x8192.Idx) (q : dot_S128x1024_S1024x8192_S128x8192_1_0_0_1_n_n.contr.Idx) : (dot_S128x1024_S1024x8192_S128x8192_1_0_0_1_n_n.rhsIdx i q 1).val = (i 1).val := by
  unfold DotDims.rhsIdx
  rw [dif_neg (show ¬(1 : Fin S1024x8192.rank) ∈ dot_S128x1024_S1024x8192_S128x8192_1_0_0_1_n_n.rhsBatch by decide), dif_pos (show (1 : Fin S1024x8192.rank) ∈ dot_S128x1024_S1024x8192_S128x8192_1_0_0_1_n_n.rhsNonContracting by decide)]
  rfl

theorem lhsB_0 (i : S128x1024.Idx) (q : dot_S128x8192_S8192x1024_S128x1024_1_0_0_1_n_n.contr.Idx) : (dot_S128x8192_S8192x1024_S128x1024_1_0_0_1_n_n.lhsIdx i q 0).val = (i 0).val := by
  unfold DotDims.lhsIdx
  rw [dif_neg (show ¬(0 : Fin S128x8192.rank) ∈ dot_S128x8192_S8192x1024_S128x1024_1_0_0_1_n_n.lhsBatch by decide), dif_pos (show (0 : Fin S128x8192.rank) ∈ dot_S128x8192_S8192x1024_S128x1024_1_0_0_1_n_n.lhsNonContracting by decide)]
  rfl
theorem lhsB_1 (i : S128x1024.Idx) (q : dot_S128x8192_S8192x1024_S128x1024_1_0_0_1_n_n.contr.Idx) : (dot_S128x8192_S8192x1024_S128x1024_1_0_0_1_n_n.lhsIdx i q 1).val = (q ⟨0, by decide⟩).val :=
  dot_S128x8192_S8192x1024_S128x1024_1_0_0_1_n_n.lhsIdx_val_of_single rfl i q
theorem rhsB_0 (i : S128x1024.Idx) (q : dot_S128x8192_S8192x1024_S128x1024_1_0_0_1_n_n.contr.Idx) : (dot_S128x8192_S8192x1024_S128x1024_1_0_0_1_n_n.rhsIdx i q 0).val = (q ⟨0, by decide⟩).val :=
  dot_S128x8192_S8192x1024_S128x1024_1_0_0_1_n_n.rhsIdx_val_of_single rfl i q
theorem rhsB_1 (i : S128x1024.Idx) (q : dot_S128x8192_S8192x1024_S128x1024_1_0_0_1_n_n.contr.Idx) : (dot_S128x8192_S8192x1024_S128x1024_1_0_0_1_n_n.rhsIdx i q 1).val = (i 1).val := by
  unfold DotDims.rhsIdx
  rw [dif_neg (show ¬(1 : Fin S8192x1024.rank) ∈ dot_S128x8192_S8192x1024_S128x1024_1_0_0_1_n_n.rhsBatch by decide), dif_pos (show (1 : Fin S8192x1024.rank) ∈ dot_S128x8192_S8192x1024_S128x1024_1_0_0_1_n_n.rhsNonContracting by decide)]
  rfl

/-- The query block times the transposed key array, into a zero accumulator: at (r, j) the dot product of query row r
    and key row j. -/
theorem scores_apply (q : FVec Ideal S128x1024 .bf16) (k : FVec Ideal S8192x1024 .bf16) (r : Fin 128) (j : Fin 8192) :
    (matmul (F := Ideal) dot_S128x1024_S1024x8192_S128x8192_1_0_0_1_n_n none (shapeCast S128x1024 q shapeCasts_S128x1024_S128x1024)
        (transpose S1024x8192 [1, 0] (shapeCast S8192x1024 k shapeCasts_S8192x1024_S8192x1024) transposes_S8192x1024_p1_0_S1024x8192)
        (constant (F := Ideal) S128x8192 .f32 0x00000000#32) : FVec Ideal S128x8192 .f32) (ix2 r j)
      = ∑ d : Fin 1024, q (ix2 r d) * k (ix2 j d) := by
  rw [shapeCast_self, shapeCast_self]
  simp only [matmul]
  rw [Ideal.matmul_constant_zero_apply,
    ← Equiv.sum_comp (contrEquiv1 dot_S128x1024_S1024x8192_S128x8192_1_0_0_1_n_n 1024 rfl rfl).symm]
  refine Finset.sum_congr rfl fun d _ => ?_
  have hd := contrEquiv1_symm_val dot_S128x1024_S1024x8192_S128x8192_1_0_0_1_n_n 1024 rfl rfl d
  have el : dot_S128x1024_S1024x8192_S128x8192_1_0_0_1_n_n.lhsIdx (ix2 r j) ((contrEquiv1 dot_S128x1024_S1024x8192_S128x8192_1_0_0_1_n_n 1024 rfl rfl).symm d) = ix2 r d :=
    funext fun a => Fin.ext (by
      match a with
      | ⟨0, _⟩ => exact lhsA_0 _ _
      | ⟨1, _⟩ => exact (lhsA_1 _ _).trans hd)
  rw [el]
  refine congrArg (q (ix2 r d) * ·) ?_
  refine transpose_apply [1, 0] k transposes_S8192x1024_p1_0_S1024x8192 _ (ix2 j d) fun b => ?_
  match b with
  | ⟨0, _⟩ =>
    show d.val = _
    exact ((rhsA_0 (ix2 r j) _).trans hd).symm
  | ⟨1, _⟩ =>
    show j.val = _
    exact (rhsA_1 (ix2 r j) _).symm

/-- A column [128, 1] repeated along 8192 columns: at (r, j) its entry for row r. -/
theorem column_apply (c : FVec Ideal S128x1 .f32) (r : Fin 128) (j : Fin 8192) :
    broadcastTo S128x8192 (shapeCast S128x1 c shapeCasts_S128x1_S128x1) broadcasts_S128x1_S128x8192 (ix2 r j) = c (ix2 r 0) := by
  rw [shapeCast_self]
  refine broadcastTo_apply c broadcasts_S128x1_S128x8192 (ix2 r j) (ix2 r (0 : Fin 1)) fun ax => ?_
  match ax with
  | ⟨0, _⟩ => show r.val = if (128 : ℕ) = 1 then 0 else r.val; rw [if_neg (by decide)]
  | ⟨1, _⟩ => show 0 = if (1 : ℕ) = 1 then 0 else j.val; rw [if_pos rfl]

/-- A row [1, 8192] repeated along 128 rows: at (r, j) its entry for column j. -/
theorem row_apply (ρ : FVec Ideal S1x8192 .f32) (r : Fin 128) (j : Fin 8192) :
    broadcastTo S128x8192 (shapeCast S1x8192 ρ shapeCasts_S1x8192_S1x8192) broadcasts_S1x8192_S128x8192 (ix2 r j) = ρ (ix2 0 j) := by
  rw [shapeCast_self]
  exact broadcastTo_1b_ab_apply ρ broadcasts_S1x8192_S128x8192 r j

/-- Below 2^32 the 32-bit sum r + t·128 equals j exactly when the numbers do. -/
theorem diag_word (t r j : ℕ) (ht : t < 64) (hr : r < 128) (hj : j < 8192) :
    (BitVec.ofNat 32 r + BitVec.ofNat 32 t * 128#32 = BitVec.ofNat 32 j) ↔ 128 * t + r = j := by
  constructor
  · intro h
    have := congrArg BitVec.toNat h
    simp only [BitVec.toNat_add, BitVec.toNat_mul, BitVec.toNat_ofNat] at this
    omega
  · intro h
    apply BitVec.eq_of_toNat_eq
    simp only [BitVec.toNat_add, BitVec.toNat_mul, BitVec.toNat_ofNat]
    omega

/-- The row's own key, as the body tests it: the global row number 128·t + r against the column number j. -/
theorem own_key_bit (i : grid0.Coords) (r : Fin 128) (j : Fin 8192) :
    cmpi .eq (addi (iota .tc S128x8192 32 [0] iota_S128x8192_d0_w32) (broadcast S128x8192 (Scalar.muli (BitVec.ofNat 32 (i 0).val) 128#32)))
      (iota .tc S128x8192 32 [1] iota_S128x8192_d1_w32) (ix2 r j)
      = if 128 * (i 0).val + r.val = j.val then 1#1 else 0#1 := by
  have ht : (i 0).val < 64 := (i 0).isLt
  show IntOp.cmpi .eq (IntOp.addi (iota .tc S128x8192 32 [0] iota_S128x8192_d0_w32 (ix2 r j)) (Scalar.muli (BitVec.ofNat 32 (i 0).val) 128#32))
      (iota .tc S128x8192 32 [1] iota_S128x8192_d1_w32 (ix2 r j)) = _
  rw [iota_single_apply, iota_single_apply]
  show BitVec.ofBool (BitVec.ofNat 32 r.val + BitVec.ofNat 32 (i 0).val * 128#32 == BitVec.ofNat 32 j.val) = _
  by_cases h : 128 * (i 0).val + r.val = j.val
  · rw [if_pos h, beq_iff_eq.mpr ((diag_word _ _ _ ht r.isLt j.isLt).mpr h)]
    rfl
  · rw [if_neg h, beq_eq_false_iff_ne.mpr fun e => h ((diag_word _ _ _ ht r.isLt j.isLt).mp e)]
    rfl

/-- The block of weights the body forms, before it is normalised. -/
def weights (i : grid0.Coords) (q : FVec Ideal S128x1024 .bf16) (k : FVec Ideal S8192x1024 .bf16) (ρ : FVec Ideal S1x8192 .f32)
    (c : FVec Ideal S128x1 .f32) : FVec Ideal S128x8192 .f32 :=
  select
    (cmpi .eq (addi (iota .tc S128x8192 32 [0] iota_S128x8192_d0_w32) (broadcast S128x8192 (Scalar.muli (BitVec.ofNat 32 (i 0).val) 128#32)))
      (iota .tc S128x8192 32 [1] iota_S128x8192_d1_w32))
    (broadcast S128x8192 (Scalar.ofBits (F := Ideal) .f32 0x00000000#32))
    (exp (subf (mulf (mulf
        (matmul (F := Ideal) dot_S128x1024_S1024x8192_S128x8192_1_0_0_1_n_n none (shapeCast S128x1024 q shapeCasts_S128x1024_S128x1024)
          (transpose S1024x8192 [1, 0] (shapeCast S8192x1024 k shapeCasts_S8192x1024_S8192x1024) transposes_S8192x1024_p1_0_S1024x8192)
          (constant (F := Ideal) S128x8192 .f32 0x00000000#32))
        (broadcastTo S128x8192 (shapeCast S128x1 c shapeCasts_S128x1_S128x1) broadcasts_S128x1_S128x8192))
        (broadcastTo S128x8192 (shapeCast S1x8192 ρ shapeCasts_S1x8192_S1x8192) broadcasts_S1x8192_S128x8192))
      (broadcast S128x8192 (Scalar.ofBits (F := Ideal) .f32 0x3F800000#32))))

/-- The block of weights at (r, j) is the weight of key j for row r. -/
theorem weights_apply (i : grid0.Coords) (q : FVec Ideal S128x1024 .bf16) (k : FVec Ideal S8192x1024 .bf16) (ρ : FVec Ideal S1x8192 .f32)
    (c : FVec Ideal S128x1 .f32) (r : Fin 128) (j : Fin 8192) :
    weights i q k ρ c (ix2 r j) = weight (i 0).val q k ρ c r j := by
  unfold weights weight
  rw [select_apply, own_key_bit]
  by_cases h : 128 * (i 0).val + r.val = j.val
  · rw [if_pos h, if_pos h, select_one]
    rfl
  · rw [if_neg h, if_neg h, select_zero]
    show Ideal.exp (_ * _ * _ - _) = _
    rw [scores_apply, column_apply, row_apply]
    rfl

/-- The attention block is the block of weights divided, row by row, by the row's sum of weights. -/
theorem pay2_eq (i : grid0.Coords) (q : FVec Ideal S128x1024 .bf16) (k : FVec Ideal S8192x1024 .bf16) (ρ : FVec Ideal S1x8192 .f32)
    (c : FVec Ideal S128x1 .f32) :
    k0_pay2 (F := Ideal) i q k ρ c
      = divf (weights i q k ρ c) (broadcastTo S128x8192 (shapeCast S128x1
          (multiReduction .add [1] S128 (weights i q k ρ c) 0x00000000#32 reduces_S128x8192_S128 (.inl rfl) rfl)
          shapeCasts_S128_S128x1) broadcasts_S128x1_S128x8192) := rfl

/-- The attention block at (r, j): the weight of key j over the sum of the row's weights. -/
theorem pay2_apply (i : grid0.Coords) (q : FVec Ideal S128x1024 .bf16) (k : FVec Ideal S8192x1024 .bf16) (ρ : FVec Ideal S1x8192 .f32)
    (c : FVec Ideal S128x1 .f32) (r : Fin 128) (j : Fin 8192) :
    k0_pay2 (F := Ideal) i q k ρ c (ix2 r j)
      = Ideal.div (weight (i 0).val q k ρ c r j) (∑ j' : Fin 8192, weight (i 0).val q k ρ c r j') := by
  rw [pay2_eq]
  show Ideal.div (weights i q k ρ c (ix2 r j)) (broadcastTo S128x8192 (shapeCast S128x1
      (multiReduction .add [1] S128 (weights i q k ρ c) 0x00000000#32 reduces_S128x8192_S128 (.inl rfl) rfl)
      shapeCasts_S128_S128x1) broadcasts_S128x1_S128x8192 (ix2 r j)) = _
  rw [Cert.RowOps.column_repeated_apply, Cert.RowOps.sum_over_columns_apply, weights_apply]
  exact congrArg _ (Finset.sum_congr rfl fun j' _ => weights_apply i q k ρ c r j')

/-- The output block at (r, d): the attention row r against column d of the key array. -/
theorem pay3_apply (i : grid0.Coords) (q : FVec Ideal S128x1024 .bf16) (k : FVec Ideal S8192x1024 .bf16) (ρ : FVec Ideal S1x8192 .f32)
    (c : FVec Ideal S128x1 .f32) (r : Fin 128) (d : Fin 1024) :
    k0_pay3 (F := Ideal) i q k ρ c (ix2 r d) = ∑ j : Fin 8192, k0_pay2 (F := Ideal) i q k ρ c (ix2 r j) * k (ix2 j d) := by
  unfold k0_pay3 k0_pay1
  dsimp only
  rw [shapeCast_self]
  simp only [matmul]
  rw [Ideal.matmul_constant_zero_apply,
    ← Equiv.sum_comp (contrEquiv1 dot_S128x8192_S8192x1024_S128x1024_1_0_0_1_n_n 8192 rfl rfl).symm]
  refine Finset.sum_congr rfl fun j _ => ?_
  have hj := contrEquiv1_symm_val dot_S128x8192_S8192x1024_S128x1024_1_0_0_1_n_n 8192 rfl rfl j
  have el : dot_S128x8192_S8192x1024_S128x1024_1_0_0_1_n_n.lhsIdx (ix2 r d) ((contrEquiv1 dot_S128x8192_S8192x1024_S128x1024_1_0_0_1_n_n 8192 rfl rfl).symm j) = ix2 r j :=
    funext fun a => Fin.ext (by
      match a with
      | ⟨0, _⟩ => exact lhsB_0 _ _
      | ⟨1, _⟩ => exact (lhsB_1 _ _).trans hj)
  have er : dot_S128x8192_S8192x1024_S128x1024_1_0_0_1_n_n.rhsIdx (ix2 r d) ((contrEquiv1 dot_S128x8192_S8192x1024_S128x1024_1_0_0_1_n_n 8192 rfl rfl).symm j) = ix2 j d :=
    funext fun a => Fin.ext (by
      match a with
      | ⟨0, _⟩ => exact (rhsB_0 _ _).trans hj
      | ⟨1, _⟩ => exact rhsB_1 _ _)
  rw [el, er]
  rfl

end Cert.KernelEntry

end
-- ==== Proof.LibSoftmaxShift.lean ====
/-
  The real-number laws that join the two programs, and the lemmas that carry them to the extended reals.

  Both programs compute, for a row i, weights proportional to exp (s i j) over the columns j ≠ i, normalised by their
  sum.  One shifts the exponent by the constant 1, the other by the row's maximum; since
  exp (s - μ) = exp (μ' - μ) · exp (s - μ'), a change of shift multiplies every weight of the row, and so their sum, by
  one positive factor, which cancels in the quotient (`softmax_shift`).  The similarities themselves are written once
  as a dot product scaled afterwards by the two inverse norms and once as the dot product of the two scaled rows
  (`scaled_dot`).  These are laws of the reals: on the extended reals they hold where every entry is finite, which
  is where they are used, through the coercion lemmas below.
-/
import Mathlib
import Idealize.ShloMosaic.PureOps.Ideal

noncomputable section

open scoped BigOperators

namespace Cert.Attn

open Idealize.ShloMosaic

/-- A dot product scaled by 1/u and 1/v is the dot product of the rows divided by u and by v. -/
theorem scaled_dot {ι : Type*} [Fintype ι] (a b : ι → ℝ) (u v : ℝ) :
    (∑ d, a d * b d) * (1 / u) * (1 / v) = ∑ d, (a d / u) * (b d / v) := by
  rw [Finset.sum_mul, Finset.sum_mul]
  refine Finset.sum_congr rfl fun d _ => ?_
  ring

/-- The weight of column j in row i under the shift μ: zero on the diagonal, exp (σ j - μ) off it. -/
def mexp {ι : Type*} [DecidableEq ι] (σ : ι → ℝ) (i : ι) (μ : ℝ) (j : ι) : ℝ :=
  if i = j then 0 else Real.exp (σ j - μ)

theorem mexp_nonneg {ι : Type*} [DecidableEq ι] (σ : ι → ℝ) (i : ι) (μ : ℝ) (j : ι) : 0 ≤ mexp σ i μ j := by
  unfold mexp
  split
  · exact le_rfl
  · exact (Real.exp_pos _).le

/-- Changing the shift multiplies every weight of the row by one positive factor. -/
theorem mexp_shift {ι : Type*} [DecidableEq ι] (σ : ι → ℝ) (i : ι) (μ μ' : ℝ) (j : ι) :
    mexp σ i μ j = Real.exp (μ' - μ) * mexp σ i μ' j := by
  unfold mexp
  split
  · rw [mul_zero]
  · rw [← Real.exp_add]
    congr 1
    ring

/-- A row with a column off the diagonal has a positive sum of weights. -/
theorem sum_mexp_pos {ι : Type*} [Fintype ι] [DecidableEq ι] (σ : ι → ℝ) (i : ι) (μ : ℝ) (k : ι) (hk : i ≠ k) :
    0 < ∑ j, mexp σ i μ j := by
  refine lt_of_lt_of_le ?_ (Finset.single_le_sum (fun j _ => mexp_nonneg σ i μ j) (Finset.mem_univ k))
  unfold mexp
  rw [if_neg hk]
  exact Real.exp_pos _

/-- The normalised weights do not depend on the shift. -/
theorem softmax_shift {ι : Type*} [Fintype ι] [DecidableEq ι] (σ : ι → ℝ) (i : ι) (μ μ' : ℝ) (j : ι) :
    mexp σ i μ j / ∑ k, mexp σ i μ k = mexp σ i μ' j / ∑ k, mexp σ i μ' k := by
  have hs : ∑ k, mexp σ i μ k = Real.exp (μ' - μ) * ∑ k, mexp σ i μ' k := by
    rw [Finset.mul_sum]
    exact Finset.sum_congr rfl fun k _ => mexp_shift σ i μ μ' k
  rw [hs, mexp_shift σ i μ μ' j]
  exact mul_div_mul_left _ _ (Real.exp_pos _).ne'

/-! ## From the reals to the extended reals -/

/-- The coercion to the extended reals commutes with a finite sum. -/
theorem coe_sum {ι : Type*} (s : Finset ι) (f : ι → ℝ) :
    ((∑ k ∈ s, f k : ℝ) : EReal) = ∑ k ∈ s, (f k : EReal) := by
  classical
  refine Finset.induction_on s (by simp) fun a s h ih => ?_
  rw [Finset.sum_insert h, Finset.sum_insert h, EReal.coe_add, ih]

/-- The quotient of two reals, the divisor not zero, read on the extended reals. -/
theorem div_coe_coe (a : ℝ) {b : ℝ} (hb : b ≠ 0) : Ideal.div (a : EReal) (b : EReal) = ((a / b : ℝ) : EReal) := by
  rw [Ideal.div_coe hb, ← EReal.coe_mul, mul_one_div]

end Cert.Attn

end
-- ==== Proof.Spec.lean ====
/-
  What both programs compute, as whole-array functions of the input X [8192, 1024] on the extended reals.

  Row i has the clamped norm n i = max (√(Σ_d X(i,d)²), ε) and the inverse norm 1 / n i.  The weight of key j for row i is

      w i j = 0                                                     if i = j,
            = exp ((Σ_d X(i,d) · X(j,d)) · (1 / n i) · (1 / n j) - 1)     otherwise;

  the attention matrix is  A(i,j) = w i j / Σ_j' w i j'  and the output is  O(i,d) = Σ_j A(i,j) · X(j,d).
-/
import proofs.«128488_j86157043957990_2_alg».proof.Proof.LibSoftmaxShift
import proofs.«128488_j86157043957990_2_alg».proof.Proof.Gen.ReferenceIdeal.Read
import Idealize.ShloMosaic.Lib.ValueIdx

noncomputable section

open scoped BigOperators

namespace Cert.Attn

open Idealize.ShloMosaic Idealize.ShloMosaic.ValueIdx

/-- The input's shape, and the attention matrix's. -/
abbrev SND : Shape := ⟨2, ![8192, 1024]⟩
abbrev SNN : Shape := ⟨2, ![8192, 8192]⟩

/-- The inverse of row i's clamped norm. -/
def rinv (X : SND.Idx → EReal) (i : Fin 8192) : EReal :=
  Ideal.div (Ideal.ofBits .f32 0x3F800000#32) (Cert.ReferenceIdeal.Read.val_main_v2 (F := Ideal) X (ix2 i 0))

/-- The weight of key j for row i. -/
def wt (X : SND.Idx → EReal) (i j : Fin 8192) : EReal :=
  if i = j then Ideal.ofBits .f32 0x00000000#32
  else Ideal.exp ((∑ d : Fin 1024, X (ix2 i d) * X (ix2 j d)) * rinv X i * rinv X j - Ideal.ofBits .f32 0x3F800000#32)

/-- The attention matrix: each row's weights over their sum. -/
def attn (X : SND.Idx → EReal) : SNN.Idx → EReal :=
  fun y => Ideal.div (wt X (y 0) (y 1)) (∑ j' : Fin 8192, wt X (y 0) j')

/-- The output: each attention row against the columns of the input. -/
def out (X : SND.Idx → EReal) : SND.Idx → EReal :=
  fun y => ∑ j : Fin 8192, attn X (ix2 (y 0) j) * X (ix2 j (y 1))

end Cert.Attn

end
-- ==== Proof.KernelBlocks.lean ====
/-
  From the body's blocks to the two result arrays.

  Grid point t (of 64) works on rows 128·t … 128·t + 127.  Its query rows are those rows of the key array, which is the
  input itself (the change of float format is the identity on the extended reals); its column of inverse norms is those
  rows of the inverse-norm column, and the row of inverse norms is that column laid out as a row.  So what point t
  writes back is rows 128·t … 128·t + 127 of the attention matrix and of the output of Spec.lean, and the 64 points'
  blocks cover every row: after the run the two result arrays are those two functions of the input.
-/
import proofs.«128488_j86157043957990_2_alg».proof.Proof.Gen.KernelIdeal.Value
import proofs.«128488_j86157043957990_2_alg».proof.Proof.KernelEntry
import proofs.«128488_j86157043957990_2_alg».proof.Proof.Spec
import Idealize.ShloMosaic.Lib.Pipeline.Value
import Idealize.ShloMosaic.Lib.StableHlo.Run
import Idealize.ShloMosaic.Lib.Tactic

set_option maxRecDepth 16384

noncomputable section

open scoped BigOperators

namespace Cert.KernelBlocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Attn Cert.KernelEntry

variable (m : (ℓ : Loc nD τ sig) → Buf (Elt Ideal) ℓ) (ρ : Dev nD → PrngReg)

theorem hz : (![0, 0] : Fin 2 → Nat) = fun _ => 0 := funext fun a => by fin_cases a <;> rfl

/-! ## What the body leaves in its two output buffers -/

/-- The attention buffer after the body: its one covering store's value, whose loads read the query rows out of the key
    buffer at the point's row offset and the three input buffers whole. -/
theorem out4_eq (c : Dev nD) (i : grid0.Coords) (arg1 : Memref sig .tc .vmem S8192x1024 .bf16) (harg1 : arg1.IsWhole) (arg2 : Memref sig .tc .vmem S1x8192 .f32) (harg2 : arg2.IsWhole) (arg3 : Memref sig .tc .vmem S128x1 .f32) (harg3 : arg3.IsWhole) (arg4 : Memref sig .tc .vmem S128x1024 .f32) (harg4 : arg4.IsWhole) (arg5 : Memref sig .tc .vmem S128x8192 .f32) (harg5 : arg5.IsWhole) (x0 : Vec Ideal S8192x1024 .bf16) (x1 : Vec Ideal S1x8192 .f32) (x2 : Vec Ideal S128x1 .f32) :
    out0_A_4 (F := Ideal) c i arg1 harg1 arg2 harg2 arg3 harg3 arg4 harg4 arg5 harg5 x0 x1 x2
      = k0_pay2 (F := Ideal) i (View.ld x0 (Rect.unit (s := S8192x1024) (k0_off1 i) S128x1024.size (k0_off1_inb i))) x0 x1 x2 := by
  unfold out0_A_4
  rw [View.read_writes_eq_canon _ _ _ (cover0_A_4 c i arg1 harg1 arg2 harg2 arg3 harg3 arg4 harg4 arg5 harg5 x0 x1 x2)]
  unfold kernelRun0_A
  dsimp only
  rw [View.canon_unit_zero hz]
  simp only [View.readAt_eq_ld, harg1.read_unread, harg2.read_unread, harg3.read_unread,
    View.ld_unit_zero (S := S8192x1024) hz, View.ld_unit_zero (S := S1x8192) hz, View.ld_unit_zero (S := S128x1) hz]

/-- The output buffer after the body, likewise. -/
theorem out3_eq (c : Dev nD) (i : grid0.Coords) (arg1 : Memref sig .tc .vmem S8192x1024 .bf16) (harg1 : arg1.IsWhole) (arg2 : Memref sig .tc .vmem S1x8192 .f32) (harg2 : arg2.IsWhole) (arg3 : Memref sig .tc .vmem S128x1 .f32) (harg3 : arg3.IsWhole) (arg4 : Memref sig .tc .vmem S128x1024 .f32) (harg4 : arg4.IsWhole) (arg5 : Memref sig .tc .vmem S128x8192 .f32) (harg5 : arg5.IsWhole) (x0 : Vec Ideal S8192x1024 .bf16) (x1 : Vec Ideal S1x8192 .f32) (x2 : Vec Ideal S128x1 .f32) :
    out0_A_3 (F := Ideal) c i arg1 harg1 arg2 harg2 arg3 harg3 arg4 harg4 arg5 harg5 x0 x1 x2
      = k0_pay3 (F := Ideal) i (View.ld x0 (Rect.unit (s := S8192x1024) (k0_off1 i) S128x1024.size (k0_off1_inb i))) x0 x1 x2 := by
  unfold out0_A_3
  rw [View.read_writes_eq_canon _ _ _ (cover0_A_3 c i arg1 harg1 arg2 harg2 arg3 harg3 arg4 harg4 arg5 harg5 x0 x1 x2)]
  unfold kernelRun0_A
  dsimp only
  rw [View.canon_unit_zero hz]
  simp only [View.readAt_eq_ld, harg1.read_unread, harg2.read_unread, harg3.read_unread,
    View.ld_unit_zero (S := S8192x1024) hz, View.ld_unit_zero (S := S1x8192) hz, View.ld_unit_zero (S := S128x1) hz]

/-! ## The three input arrays as the launch finds them -/

/-- The input array on core c. -/
abbrev inp (c : Dev nD) : SND.Idx → EReal := m ((c : Thread nD τ).loc main_arg0)

/-- The inverse clamped norms as a column [8192, 1]: one over the clamped norm, row by row. -/
def rcol (x : FVec Ideal S8192x1024 .f32) : FVec Ideal S8192x1 .f32 :=
  Host.divf (broadcastInDim S8192x1 ![] bcast_S_S8192x1 (constant (F := Ideal) S_ .f32 0x3F800000#32))
    (Cert.ReferenceIdeal.Read.val_main_v2 (F := Ideal) x)

theorem rcol_apply (x : FVec Ideal S8192x1024 .f32) (i : Fin 8192) : rcol x (ix2 i 0) = rinv x i := rfl

/-- The column laid out as a row [1, 8192]: entry (0, j) is entry (j, 0). -/
theorem rrow_apply (x : FVec Ideal S8192x1024 .f32) (j : Fin 8192) :
    shapeCast S1x8192 (rcol x) shapeCasts_S8192x1_S1x8192 (ix2 0 j) = rinv x j := by
  refine (shapeCast_apply (rcol x) shapeCasts_S8192x1_S1x8192 (ix2 (0 : Fin 1) j) (ix2 j (0 : Fin 1)) ?_).trans (rcol_apply x j)
  rw [Shape.rowMajor_val_two, Shape.rowMajor_val_two]
  show j.val * 1 + 0 = 0 * 8192 + j.val
  omega

theorem V_v4 (c : Dev nD) : (V m c main_v4 : S8192x1.Idx → EReal) = rcol (inp m c) := by
  dsimp only [V]
  simp only [hostOps0, hostOps0_1, List.flatten_cons, List.flatten_nil, List.append_nil, List.cons_append, List.nil_append]
  after_results
  rfl

theorem V_v5 (c : Dev nD) : (V m c main_v5 : S1x8192.Idx → EReal) = shapeCast S1x8192 (rcol (inp m c)) shapeCasts_S8192x1_S1x8192 := by
  dsimp only [V]
  simp only [hostOps0, hostOps0_1, List.flatten_cons, List.flatten_nil, List.append_nil, List.cons_append, List.nil_append]
  after_results
  rfl

theorem V_v6 (c : Dev nD) : (V m c main_v6 : S8192x1024.Idx → EReal) = inp m c := by
  dsimp only [V]
  simp only [hostOps0, hostOps0_1, List.flatten_cons, List.flatten_nil, List.append_nil, List.cons_append, List.nil_append]
  after_results
  rfl

/-! ## One grid point's blocks, over plain variables -/

/-- With the point's blocks being the rows of the input and of its inverse norms, the body's weight is the weight of
    Spec.lean for the global row 128·t + r. -/
theorem weight_eq (X : SND.Idx → EReal) (t : ℕ) (q : S128x1024.Idx → EReal) (k : S8192x1024.Idx → EReal)
    (ρ' : S1x8192.Idx → EReal) (cc : S128x1.Idx → EReal) (r : Fin 128) (hr : 128 * t + r.val < 8192)
    (hq : ∀ d, q (ix2 r d) = X (ix2 ⟨128 * t + r.val, hr⟩ d)) (hk : ∀ j d, k (ix2 j d) = X (ix2 j d))
    (hρ : ∀ j, ρ' (ix2 0 j) = rinv X j) (hc : cc (ix2 r 0) = rinv X ⟨128 * t + r.val, hr⟩) (j : Fin 8192) :
    weight t q k ρ' cc r j = wt X ⟨128 * t + r.val, hr⟩ j := by
  unfold weight wt
  by_cases h : 128 * t + r.val = j.val
  · rw [if_pos h, if_pos (Fin.ext h)]
  · rw [if_neg h, if_neg (fun e => h (congrArg Fin.val e)), hc, hρ j,
      Finset.sum_congr rfl fun d _ => by rw [hq d, hk j d]]

/-- The attention block's entry (r, j) is entry (128·t + r, j) of the attention matrix. -/
theorem attn_entry (X : SND.Idx → EReal) (i : grid0.Coords) (t : ℕ) (hi : (i 0).val = t) (q : FVec Ideal S128x1024 .bf16)
    (k : FVec Ideal S8192x1024 .bf16) (ρ' : FVec Ideal S1x8192 .f32) (cc : FVec Ideal S128x1 .f32) (r : Fin 128)
    (hr : 128 * t + r.val < 8192)
    (hq : ∀ d, q (ix2 r d) = X (ix2 ⟨128 * t + r.val, hr⟩ d)) (hk : ∀ j d, k (ix2 j d) = X (ix2 j d))
    (hρ : ∀ j, ρ' (ix2 0 j) = rinv X j) (hc : cc (ix2 r 0) = rinv X ⟨128 * t + r.val, hr⟩) (j : Fin 8192) :
    k0_pay2 (F := Ideal) i q k ρ' cc (ix2 r j) = attn X (ix2 ⟨128 * t + r.val, hr⟩ j) := by
  rw [pay2_apply, hi]
  show _ = Ideal.div (wt X ⟨128 * t + r.val, hr⟩ j) (∑ j' : Fin 8192, wt X ⟨128 * t + r.val, hr⟩ j')
  rw [weight_eq X t q k ρ' cc r hr hq hk hρ hc j]
  exact congrArg _ (Finset.sum_congr rfl fun j' _ => weight_eq X t q k ρ' cc r hr hq hk hρ hc j')

/-- The output block's entry (r, d) is entry (128·t + r, d) of the output. -/
theorem out_entry (X : SND.Idx → EReal) (i : grid0.Coords) (t : ℕ) (hi : (i 0).val = t) (q : FVec Ideal S128x1024 .bf16)
    (k : FVec Ideal S8192x1024 .bf16) (ρ' : FVec Ideal S1x8192 .f32) (cc : FVec Ideal S128x1 .f32) (r : Fin 128)
    (hr : 128 * t + r.val < 8192)
    (hq : ∀ d, q (ix2 r d) = X (ix2 ⟨128 * t + r.val, hr⟩ d)) (hk : ∀ j d, k (ix2 j d) = X (ix2 j d))
    (hρ : ∀ j, ρ' (ix2 0 j) = rinv X j) (hc : cc (ix2 r 0) = rinv X ⟨128 * t + r.val, hr⟩) (d : Fin 1024) :
    k0_pay3 (F := Ideal) i q k ρ' cc (ix2 r d) = out X (ix2 ⟨128 * t + r.val, hr⟩ d) := by
  rw [pay3_apply]
  show _ = ∑ j : Fin 8192, attn X (ix2 ⟨128 * t + r.val, hr⟩ j) * X (ix2 j d)
  exact Finset.sum_congr rfl fun j _ => by rw [attn_entry X i t hi q k ρ' cc r hr hq hk hρ hc j, hk j d]

/-! ## The printed index maps over the grid -/

/-- Decided over the 64 points: the key array and the row of inverse norms are one block, always block (0, 0); the
    column of inverse norms and both outputs move one block of 128 rows per point; the query rows start at row 128·t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ k0_off1 (grid0.coords t) (0 : Fin 2) = 128 * t.val ∧ k0_off1 (grid0.coords t) (1 : Fin 2) = 0
    ∧ ((grid0.coords t) 0).val = t.val :=
  (by decide +kernel : ∀ t : Fin grid0.N, _)

end Cert.KernelBlocks

end
-- ==== Proof.KernelAttn.lean ====
/-
  The attention matrix after the run.

  Point t writes back rows 128·t … 128·t + 127 of the attention matrix of Spec.lean: entry (r, j) of its block is entry
  (128·t + r, j).  Every row lies in exactly one such block (row i in that of point i / 128), so the result array is the
  whole matrix.
-/
import proofs.«128488_j86157043957990_2_alg».proof.Proof.KernelBlocks

set_option maxRecDepth 16384

noncomputable section

open scoped BigOperators

namespace Cert.KernelAttn

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Attn Cert.KernelEntry Cert.KernelBlocks

variable (m : (ℓ : Loc nD τ sig) → Buf (Elt Ideal) ℓ) (ρ : Dev nD → PrngReg)

/-- What point t writes back to the attention matrix is its rows 128·t … 128·t + 127. -/
theorem flushed4_eq (c : Dev nD) (t : Fin cfg0.N) :
    (dats m 0 c).flushed 4 t = ((cfg0.win 4).blk t).view.read (Elt Ideal) (attn (inp m c)) := by
  rw [Cert.KernelIdeal.Value.flushed4_A, out4_eq c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)]
  obtain ⟨e00, e01, e10, e11, e20, e21, e30, e31, e40, e41, eo0, eo1, ec⟩ := idx_facts t
  have hN : cfg0.N = 64 := N_0
  funext y
  obtain ⟨r, j, rfl⟩ : ∃ (r : Fin 128) (j : Fin 8192), y = ix2 r j := ⟨y 0, y 1, eq_ix2 y⟩
  have hr : 128 * t.val + r.val < 8192 := by have := t.isLt; have := r.isLt; omega
  show k0_pay2 (F := Ideal) (grid0.coords t) (View.ld (iblk m c 0 t) (Rect.unit (s := S8192x1024) (k0_off1 (grid0.coords t)) S128x1024.size (k0_off1_inb (grid0.coords t)))) (iblk m c 0 t) (iblk m c 1 t) (iblk m c 2 t) (ix2 r j)
      = attn (inp m c) (((cfg0.win 4).blk t).view.emb (ix2 r j))
  have hemb : ((cfg0.win 4).blk t).view.emb (ix2 r j) = ix2 ⟨128 * t.val + r.val, hr⟩ j := by
    funext a; apply Fin.ext
    match a with
    | ⟨0, _⟩ => show win0_4.index t (0 : Fin 2) * 128 + 1 * r.val = 128 * t.val + r.val; omega
    | ⟨1, _⟩ => show win0_4.index t (1 : Fin 2) * 8192 + 1 * j.val = j.val; omega
  rw [hemb]
  refine attn_entry (inp m c) (grid0.coords t) t.val ec (View.ld (iblk m c 0 t) (Rect.unit (s := S8192x1024) (k0_off1 (grid0.coords t)) S128x1024.size (k0_off1_inb (grid0.coords t)))) (iblk m c 0 t) (iblk m c 1 t) (iblk m c 2 t)
    r hr (fun d => ?_) (fun j' d => ?_) (fun j' => ?_) ?_ j
  · show V m c main_v6 (((cfg0.win 0).blk t).view.emb ((Rect.unit (s := S8192x1024) (k0_off1 (grid0.coords t)) S128x1024.size (k0_off1_inb (grid0.coords t))).idx (ix2 r d))) = _
    rw [V_v6]
    refine congrArg (inp m c) (funext fun a => Fin.ext ?_)
    match a with
    | ⟨0, _⟩ => show win0_0.index t (0 : Fin 2) * 8192 + 1 * (k0_off1 (grid0.coords t) (0 : Fin 2) + 1 * r.val) = 128 * t.val + r.val; omega
    | ⟨1, _⟩ => show win0_0.index t (1 : Fin 2) * 1024 + 1 * (k0_off1 (grid0.coords t) (1 : Fin 2) + 1 * d.val) = d.val; omega
  · show V m c main_v6 (((cfg0.win 0).blk t).view.emb (ix2 j' d)) = _
    rw [V_v6]
    refine congrArg (inp m c) (funext fun a => Fin.ext ?_)
    match a with
    | ⟨0, _⟩ => show win0_0.index t (0 : Fin 2) * 8192 + 1 * j'.val = j'.val; omega
    | ⟨1, _⟩ => show win0_0.index t (1 : Fin 2) * 1024 + 1 * d.val = d.val; omega
  · show V m c main_v5 (((cfg0.win 1).blk t).view.emb (ix2 0 j')) = _
    rw [V_v5]
    refine Eq.trans (congrArg _ (funext fun a => Fin.ext ?_)) (rrow_apply (inp m c) j')
    match a with
    | ⟨0, _⟩ => show win0_1.index t (0 : Fin 2) * 1 + 1 * 0 = 0; omega
    | ⟨1, _⟩ => show win0_1.index t (1 : Fin 2) * 8192 + 1 * j'.val = j'.val; omega
  · show V m c main_v4 (((cfg0.win 2).blk t).view.emb (ix2 r 0)) = _
    rw [V_v4]
    refine Eq.trans (congrArg _ (funext fun a => Fin.ext ?_)) (rcol_apply (inp m c) ⟨128 * t.val + r.val, hr⟩)
    match a with
    | ⟨0, _⟩ => show win0_2.index t (0 : Fin 2) * 128 + 1 * r.val = 128 * t.val + r.val; omega
    | ⟨1, _⟩ => show win0_2.index t (1 : Fin 2) * 1 + 1 * 0 = 0; omega

/-- An index of the matrix is in point t's block iff each coordinate is in the block's range on its axis. -/
theorem mem_blk4 (t : Fin cfg0.N) (i : S8192x8192.Idx) :
    i ∈ ((cfg0.win 4).blk t).view.set ↔ ∀ a : Fin 2, win0_4.index t a * S128x8192.size a ≤ (i a).val ∧ (i a).val < win0_4.index t a * S128x8192.size a + S128x8192.size a := by
  show i ∈ ((View.whole main_v7_1).slice (win0_4.rect t)).set ↔ _
  rw [View.set_slice_whole, Rect.mem_set_unit]
  exact Iff.rfl

/-- Every entry of the matrix lies in the block of the point that holds its row. -/
theorem cover4 (i : S8192x8192.Idx) : ∃ t : Fin cfg0.N, (cfg0.win 4).flush t = true ∧ i ∈ ((cfg0.win 4).blk t).view.set := by
  have hN : cfg0.N = 64 := N_0
  have hi0 : (i 0).val < 8192 := (i 0).isLt
  have hi1 : (i 1).val < 8192 := (i 1).isLt
  let t : Fin cfg0.N := ⟨(i 0).val / 128, by omega⟩
  obtain ⟨e00, e01, e10, e11, e20, e21, e30, e31, e40, e41, eo0, eo1, ec⟩ := idx_facts t
  have ht : t.val = (i 0).val / 128 := rfl
  refine ⟨t, flush0_4 t, ?_⟩
  rw [mem_blk4]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 8192 ≤ (i 1).val ∧ (i 1).val < win0_4.index t (1 : Fin 2) * 8192 + 8192; omega

/-- The attention matrix after the run. -/
theorem final4 (c : Dev nD) : (dats m 0 c).arrAt 4 cfg0.N = attn (inp m c) :=
  (dats m 0 c).arrAt_eq_of_cover 4 (attn (inp m c)) (fun t _ => flushed4_eq m c t) cover4

end Cert.KernelAttn

end
-- ==== Proof.KernelOut.lean ====
/-
  The output array after the run, as a function of the input.

  Grid point t (of 64) writes back rows 128·t … 128·t + 127 of the [8192, 1024] output.  At that point the key block
  is the whole input, the query rows are rows 128·t … 128·t + 127 of it, the column of inverse norms is those rows of
  the inverse-norm column and the row of inverse norms is all of it; so the block the body leaves has at (r, d) the
  entry (128·t + r, d) of the output of Spec.lean.  The 64 blocks cover every row — row i lies in the block of point
  i / 128 — so after the run the output array is that function of the input.
-/
import proofs.«128488_j86157043957990_2_alg».proof.Proof.KernelBlocks
import Idealize.ShloMosaic.Lib.Pipeline.Value
import Idealize.ShloMosaic.Lib.ValueIdx

set_option maxRecDepth 16384

noncomputable section

open scoped BigOperators

namespace Cert.KernelOut

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Decided over the 64 points: the output window moves one block of 128 rows per point and always sits at column 0. -/
theorem idx3 : ∀ t : Fin cfg0.N, win0_3.index t (0 : Fin 2) = t.val ∧ win0_3.index t (1 : Fin 2) = 0 :=
  (by decide +kernel : ∀ t : Fin grid0.N, _)

/-- What point `t` writes back, read entry by entry: if the block a point leaves has at (r, d) the entry
    (128·t + r, d) of an array `G`, then what the point writes back is its block of `G`. -/
theorem block3_eq (t : Fin cfg0.N) (X : Vec Ideal S128x1024 .f32) (G : S8192x1024.Idx → EReal)
    (h : ∀ (r : Fin 128) (d : Fin 1024) (hr : 128 * t.val + r.val < 8192), X (ix2 r d) = G (ix2 ⟨128 * t.val + r.val, hr⟩ d)) :
    (cfg0.win 3).cut (grid0.coords t) X = ((cfg0.win 3).blk t).view.read (Elt Ideal) G := by
  obtain ⟨e0, e1⟩ := idx3 t
  have ht : t.val < 64 := Nat.lt_of_lt_of_eq t.isLt N_0
  funext y
  obtain ⟨r, d, rfl⟩ : ∃ (r : Fin 128) (d : Fin 1024), y = ix2 r d := ⟨y 0, y 1, eq_ix2 y⟩
  have hr : 128 * t.val + r.val < 8192 := by have := r.isLt; omega
  show X ((cfg0.win 3).xinj (grid0.coords t) (ix2 r d)) = G (((cfg0.win 3).blk t).view.emb (ix2 r d))
  have hx : (cfg0.win 3).xinj (grid0.coords t) (ix2 r d) = ix2 r d :=
    funext fun a => Fin.ext (by match a with | ⟨0, _⟩ => rfl | ⟨1, _⟩ => rfl)
  have hemb : ((cfg0.win 3).blk t).view.emb (ix2 r d) = ix2 ⟨128 * t.val + r.val, hr⟩ d := by
    funext a
    apply Fin.ext
    match a with
    | ⟨0, _⟩ =>
      show win0_3.index t (0 : Fin 2) * 128 + 1 * r.val = 128 * t.val + r.val
      omega
    | ⟨1, _⟩ =>
      show win0_3.index t (1 : Fin 2) * 1024 + 1 * d.val = d.val
      omega
  rw [hx, hemb]
  exact h r d hr

/-- An index of the output array is in point `t`'s block iff each coordinate is in the block's range on its axis. -/
theorem mem_blk3 (t : Fin cfg0.N) (i : S8192x1024.Idx) :
    i ∈ ((cfg0.win 3).blk t).view.set ↔ ∀ a : Fin 2, win0_3.index t a * S128x1024.size a ≤ (i a).val
      ∧ (i a).val < win0_3.index t a * S128x1024.size a + S128x1024.size a := by
  show i ∈ ((View.whole main_v7_0).slice (win0_3.rect t)).set ↔ _
  rw [View.set_slice_whole, Rect.mem_set_unit]
  exact Iff.rfl

/-- The 64 blocks of 128 rows cover the output array: row i lies in the block of point i / 128. -/
theorem cover3 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨T, hT⟩ : ∃ T : Fin cfg0.N, T.val = (i 0).val / 128 :=
    ⟨⟨(i 0).val / 128, by rw [show cfg0.N = 64 from N_0]; omega⟩, rfl⟩
  obtain ⟨e0, e1⟩ := idx3 T
  refine ⟨T, flush0_3 T, ?_⟩
  rw [mem_blk3]
  intro a
  match a with
  | ⟨0, _⟩ =>
    show win0_3.index T (0 : Fin 2) * 128 ≤ (i 0).val ∧ (i 0).val < win0_3.index T (0 : Fin 2) * 128 + 128
    omega
  | ⟨1, _⟩ =>
    show win0_3.index T (1 : Fin 2) * 1024 ≤ (i 1).val ∧ (i 1).val < win0_3.index T (1 : Fin 2) * 1024 + 1024
    omega

/-- Decided over the 64 points: the key array and the row of inverse norms are one block, always block (0, 0); the
    column of inverse norms moves one block of 128 rows per point; the query rows start at row 128·t; the grid
    coordinate of point t is t. -/
theorem idx_in : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ k0_off1 (grid0.coords t) (0 : Fin 2) = 128 * t.val ∧ k0_off1 (grid0.coords t) (1 : Fin 2) = 0
    ∧ ((grid0.coords t) 0).val = t.val :=
  (by decide +kernel : ∀ t : Fin grid0.N, _)

/-- The key block at every point is the whole input array. -/
theorem keys_apply (c : Dev nD) (t : Fin cfg0.N) (y : S8192x1024.Idx) :
    (iblk m c 0 t : Vec Ideal S8192x1024 .bf16) y = Cert.KernelBlocks.inp m c y := by
  obtain ⟨e0, e1, -⟩ := idx_in t
  unfold iblk
  rw [View.read_apply]
  show V m c main_v6 _ = _
  rw [Cert.KernelBlocks.V_v6]
  refine congrArg (Cert.KernelBlocks.inp m c) (funext fun a => Fin.ext ?_)
  match a with
  | ⟨0, _⟩ =>
    show win0_0.index t (0 : Fin 2) * 8192 + 1 * (y 0).val = (y 0).val
    omega
  | ⟨1, _⟩ =>
    show win0_0.index t (1 : Fin 2) * 1024 + 1 * (y 1).val = (y 1).val
    omega

/-- The block of the row of inverse norms at every point is the whole row: entry (0, j) is key j's inverse norm. -/
theorem rnorm_row_apply (c : Dev nD) (t : Fin cfg0.N) (j : Fin 8192) :
    (iblk m c 1 t : Vec Ideal S1x8192 .f32) (ix2 (0 : Fin 1) j) = Cert.Attn.rinv (Cert.KernelBlocks.inp m c) j := by
  obtain ⟨-, -, e0, e1, -⟩ := idx_in t
  unfold iblk
  rw [View.read_apply]
  show V m c main_v5 _ = _
  rw [Cert.KernelBlocks.V_v5]
  refine Eq.trans (congrArg (shapeCast S1x8192 (Cert.KernelBlocks.rcol (Cert.KernelBlocks.inp m c)) shapeCasts_S8192x1_S1x8192)
    (funext fun a => Fin.ext ?_)) (Cert.KernelBlocks.rrow_apply (Cert.KernelBlocks.inp m c) j)
  match a with
  | ⟨0, _⟩ =>
    show win0_1.index t (0 : Fin 2) * 1 + 1 * 0 = 0
    omega
  | ⟨1, _⟩ =>
    show win0_1.index t (1 : Fin 2) * 8192 + 1 * j.val = j.val
    omega

/-- The block of the column of inverse norms at point t is rows 128·t … 128·t + 127 of the column. -/
theorem rnorm_col_apply (c : Dev nD) (t : Fin cfg0.N) (r : Fin 128) (hr : 128 * t.val + r.val < 8192) :
    (iblk m c 2 t : Vec Ideal S128x1 .f32) (ix2 r (0 : Fin 1))
      = Cert.Attn.rinv (Cert.KernelBlocks.inp m c) ⟨128 * t.val + r.val, hr⟩ := by
  obtain ⟨-, -, -, -, e0, e1, -⟩ := idx_in t
  unfold iblk
  rw [View.read_apply]
  show V m c main_v4 _ = _
  rw [Cert.KernelBlocks.V_v4]
  refine Eq.trans (congrArg (Cert.KernelBlocks.rcol (Cert.KernelBlocks.inp m c)) (funext fun a => Fin.ext ?_))
    (Cert.KernelBlocks.rcol_apply (Cert.KernelBlocks.inp m c) ⟨128 * t.val + r.val, hr⟩)
  match a with
  | ⟨0, _⟩ =>
    show win0_2.index t (0 : Fin 2) * 128 + 1 * r.val = 128 * t.val + r.val
    omega
  | ⟨1, _⟩ =>
    show win0_2.index t (1 : Fin 2) * 1 + 1 * 0 = 0
    omega

/-- The query rows at point t, read out of the key block at row offset 128·t, are rows 128·t … 128·t + 127 of the input. -/
theorem query_apply (c : Dev nD) (t : Fin cfg0.N) (r : Fin 128) (d : Fin 1024) (hr : 128 * t.val + r.val < 8192) :
    View.ld (iblk m c 0 t : Vec Ideal S8192x1024 .bf16)
        (Rect.unit (s := S8192x1024) (k0_off1 (grid0.coords t)) S128x1024.size (k0_off1_inb (grid0.coords t))) (ix2 r d)
      = Cert.KernelBlocks.inp m c (ix2 ⟨128 * t.val + r.val, hr⟩ d) := by
  obtain ⟨-, -, -, -, -, -, e0, e1, -⟩ := idx_in t
  refine (keys_apply m c t _).trans (congrArg (Cert.KernelBlocks.inp m c) (funext fun a => Fin.ext ?_))
  match a with
  | ⟨0, _⟩ =>
    show k0_off1 (grid0.coords t) (0 : Fin 2) + 1 * r.val = 128 * t.val + r.val
    omega
  | ⟨1, _⟩ =>
    show k0_off1 (grid0.coords t) (1 : Fin 2) + 1 * d.val = d.val
    omega

/-- WHAT POINT t WRITES BACK to the output array is its block — rows 128·t … 128·t + 127 — of the output of Spec.lean. -/
theorem flushed3_eq (c : Dev nD) (t : Fin cfg0.N) :
    (dats m 0 c).flushed 3 t
      = ((cfg0.win 3).blk t).view.read (Elt Ideal) (Cert.Attn.out (Cert.KernelBlocks.inp m c)) := by
  obtain ⟨-, -, -, -, -, -, -, -, ht⟩ := idx_in t
  rw [Value.flushed3_A]
  rw [Cert.KernelBlocks.out3_eq c (grid0.coords t) (ms0_0 t) (hs0_0 t) (ms0_1 t) (hs0_1 t) (ms0_2 t) (hs0_2 t) (ms0_3 t) (hs0_3 t)
    (ms0_4 t) (hs0_4 t) (iblk m c 0 t) (iblk m c 1 t) (iblk m c 2 t)]
  refine block3_eq t _ (Cert.Attn.out (Cert.KernelBlocks.inp m c)) fun r d hr => ?_
  exact Cert.KernelBlocks.out_entry (Cert.KernelBlocks.inp m c) (grid0.coords t) t.val ht _ (iblk m c 0 t) (iblk m c 1 t)
    (iblk m c 2 t) r hr (fun d' => query_apply m c t r d' hr) (fun j d' => keys_apply m c t (ix2 j d'))
    (fun j => rnorm_row_apply m c t j) (rnorm_col_apply m c t r hr) d

/-- THE OUTPUT ARRAY after the run is the output of Spec.lean, as a function of the input. -/
theorem final3 (c : Dev nD) : (dats m 0 c).arrAt 3 cfg0.N = Cert.Attn.out (Cert.KernelBlocks.inp m c) :=
  (dats m 0 c).arrAt_eq_of_cover 3 _ (fun t _ => flushed3_eq m c t) cover3

end Cert.KernelOut

end
-- ==== Proof.KernelRun.lean ====
/-
  The kernel's run, read: every weakly fair execution ends with the output array at the output of Spec.lean and the
  attention array at its attention matrix, both as functions of the input array, which is left as it was.
-/
import proofs.«128488_j86157043957990_2_alg».proof.Proof.KernelAttn
import proofs.«128488_j86157043957990_2_alg».proof.Proof.KernelOut

noncomputable section

namespace Cert.KernelRun

open Cert.KernelIdeal Cert.KernelIdeal.Gen Idealize.ShloMosaic Idealize.ShloMosaic.TcCoe Idealize.SL.Sem
open Cert.Attn Cert.KernelBlocks

variable (m : (ℓ : Loc nD τ sig) → Buf (Elt Ideal) ℓ) (ρ : Dev nD → PrngReg)

/-- The generated frame run with each result array named, each name then read as its function of the input. -/
theorem run : θ_run defs (onTc (τ := τ) (main (F := Ideal))) ⟨m, fun _ => 0, ρ⟩ fun r => ∀ c : Dev nD,
      r.2.mem ((c : Thread nD τ).loc main_v7_0) = out (inp m c)
      ∧ r.2.mem ((c : Thread nD τ).loc main_v7_1) = attn (inp m c)
      ∧ r.2.mem ((c : Thread nD τ).loc main_arg0) = m ((c : Thread nD τ).loc main_arg0) :=
  (θ_run defs _ _).mono (fun r h c => ⟨(h c).1.trans (Cert.KernelOut.final3 m c), (h c).2.1.trans (Cert.KernelAttn.final4 m c), (h c).2.2⟩)
    (Cert.KernelIdeal.Value.run_blocks m ρ)

end Cert.KernelRun

end
-- ==== Proof.LibScatterConst.lean ====
/-
  Two general facts about array operations, free of any particular program.

  A scatter that overwrites with one constant.  A scatter whose body returns the update, and whose update values are all
  one constant c, is a left fold of overwrites by c over the update indices.  Because every overwrite writes the same
  value, neither the order of the updates nor how many of them share a target matters: at an operand index i' the
  result is c when some update index lands at i', and the operand's element when none does.  This is proved first for a
  fold over any list of steps that each overwrite at most one index with c (foldl_overwrite_const), then for the
  scatter (scatter_const_apply).

  A maximum over a finite set.  The fold of the maximum from a starting value b over a finite family is at least
  every member (le_fold_of_mem), and is b or one of the members (fold_eq_init_or_mem); and the reduction by maximum over
  the second axis of a two-axis array of extended reals is, at row p, that fold over the row's entries
  (hostReduce_max_rows).
-/
import Idealize.ShloMosaic.PureOps.ShapeOps
import Idealize.ShloMosaic.PureOps.Reduce
import Idealize.ShloMosaic.PureOps.Ideal.Laws
import Idealize.ShloMosaic.Lib.ValueIdx

noncomputable section

namespace Cert.ScatterConst

open Idealize.ShloMosaic Idealize.ShloMosaic.ValueIdx

/-- Overwriting by one constant, folded over a list of steps. Step `k` has a target `R k` (or none): with a target `i` it
    makes the function `c` at `i` and leaves it alone elsewhere, with no target it leaves it alone everywhere. After the
    whole list the function is, at `i'`, either `c`, and then some step of the list targeted `i'`, or what it was at the
    start, and then no step of the list targeted `i'`. No order of the steps matters: every overwrite writes the same
    value. -/
theorem foldl_overwrite_const {ι κ α : Type} (R : κ → Option ι) (c : α) (step : (ι → α) → κ → ι → α)
    (h_hit : ∀ r k i, R k = some i → step r k i = c)
    (h_miss : ∀ r k i i', R k = some i → i' ≠ i → step r k i' = r i')
    (h_none : ∀ r k, R k = none → step r k = r) (i' : ι) :
    ∀ (l : List κ) (x : ι → α),
      (l.foldl step x i' = c ∧ ∃ k ∈ l, R k = some i') ∨ (l.foldl step x i' = x i' ∧ ∀ k ∈ l, R k ≠ some i')
  | [], x => Or.inr ⟨rfl, fun k hk => absurd hk (List.not_mem_nil)⟩
  | k :: l, x => by
    rw [List.foldl_cons]
    rcases foldl_overwrite_const R c step h_hit h_miss h_none i' l (step x k) with ⟨h1, n, hn, hR⟩ | ⟨h1, h2⟩
    · exact Or.inl ⟨h1, n, List.mem_cons_of_mem _ hn, hR⟩
    · rw [h1]
      cases hk : R k with
      | none =>
        rw [h_none x k hk]
        refine Or.inr ⟨rfl, fun n hn => ?_⟩
        rcases List.mem_cons.1 hn with rfl | hn
        · rw [hk]; exact (Option.some_ne_none i').symm
        · exact h2 n hn
      | some i =>
        by_cases hi : i' = i
        · subst hi
          exact Or.inl ⟨h_hit x k _ hk, k, List.mem_cons_self, hk⟩
        · refine Or.inr ⟨h_miss x k i i' hk hi, fun n hn => ?_⟩
          rcases List.mem_cons.1 hn with rfl | hn
          · rw [hk]; intro e; exact hi (Option.some.inj e).symm
          · exact h2 n hn

/-- A scatter whose body returns the update, with every update value the same `c`: at `i'` the result is `c`, and
    then some update index lands at `i'`, or it is the operand's element, and then no update index lands at `i'`. -/
theorem scatter_const_apply {s si u : Shape} {α : Type} {w : Nat} (d : ScatterDims s si u) (x : s.Idx → α) (idx : IVec si w)
    (upd : u.Idx → α) (c : α) (hupd : ∀ j, upd j = c) (i' : s.Idx) :
    (Host.scatter d (fun _ b => b) x idx upd i' = c
        ∧ ∃ n ∈ List.finRange u.numel, d.resultIdx? (u.rowMajor.symm n) idx = some i')
      ∨ (Host.scatter d (fun _ b => b) x idx upd i' = x i'
        ∧ ∀ n ∈ List.finRange u.numel, d.resultIdx? (u.rowMajor.symm n) idx ≠ some i') := by
  unfold Host.scatter
  refine foldl_overwrite_const (fun n => d.resultIdx? (u.rowMajor.symm n) idx) c _ ?_ ?_ ?_ i' _ x
  · intro r k i hk
    beta_reduce at hk ⊢
    rw [hk]
    dsimp only
    rw [if_pos rfl]
    exact hupd _
  · intro r k i i'' hk hi
    beta_reduce at hk ⊢
    rw [hk]
    dsimp only
    rw [if_neg hi]
  · intro r k hk
    beta_reduce at hk ⊢
    rw [hk]

/-- A fold of the maximum over a finite set, from `b`, is at least every folded value. -/
theorem le_fold_of_mem {ι β : Type} [DecidableEq ι] [LinearOrder β] (op : β → β → β) [Std.Commutative op] [Std.Associative op]
    (hop : ∀ x y, op x y = max x y) (b : β) (f : ι → β) (s : Finset ι) :
    ∀ x ∈ s, f x ≤ s.fold op b f := by
  induction s using Finset.induction_on with
  | empty => intro x hx; simp at hx
  | insert a s ha ih =>
    intro x hx
    rw [Finset.fold_insert ha, hop]
    rcases Finset.mem_insert.1 hx with rfl | hx
    · exact le_max_left _ _
    · exact (ih x hx).trans (le_max_right _ _)

/-- A fold of the maximum over a finite set, from `b`, is `b` or one of the folded values. -/
theorem fold_eq_init_or_mem {ι β : Type} [DecidableEq ι] [LinearOrder β] (op : β → β → β) [Std.Commutative op] [Std.Associative op]
    (hop : ∀ x y, op x y = max x y) (b : β) (f : ι → β) (s : Finset ι) :
    s.fold op b f = b ∨ ∃ x ∈ s, s.fold op b f = f x := by
  induction s using Finset.induction_on with
  | empty => left; simp
  | insert a s ha ih =>
    rw [Finset.fold_insert ha, hop]
    rcases max_choice (f a) (s.fold op b f) with h | h
    · right; exact ⟨a, Finset.mem_insert_self _ _, h⟩
    · rw [h]
      rcases ih with ih | ⟨x, hx, ih⟩
      · left; exact ih
      · right; exact ⟨x, Finset.mem_insert_of_mem hx, ih⟩

/-- The maximum over the second axis of an [a, n] array of extended reals, from the starting value's element: at row
    `p` it is the fold of the maximum over the columns `q` of the entries `(p, q)`. -/
theorem hostReduce_max_rows {a n : ℕ} {φ : FTy} {u : Shape} (y : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := φ)) y init h' hu (ix1 p)
      = (Finset.univ : Finset (Fin n)).fold (FloatOps.maximumf (F := Ideal) (φ := φ)) (init (Shape.Idx.first hu))
          (fun q => y (ix2 p q)) := by
  rw [Host.reduce_eq_fold_single (s := ⟨2, ![a, n]⟩) (t := ⟨1, ![a]⟩) (a := (1 : Fin 2))
    (FloatOps.maximumf (F := Ideal) (φ := φ)) y init h' h hu (ix1 p)]
  refine Finset.fold_congr fun k _ => ?_
  rw [Function.comp_apply]
  exact congrArg y (funext fun ax => Fin.ext (by match ax with | ⟨0, _⟩ => rfl | ⟨1, _⟩ => rfl))

end Cert.ScatterConst

end
-- ==== Proof.RefMask.lean ====
/-
  The reference's diagonal mask and row maximum, read at an entry.

  The reference builds an 8192 x 8192 similarity matrix, overwrites its diagonal with minus infinity by a scatter, and
  takes each row's maximum from minus infinity. The scatter has one update per row `n`, the constant minus infinity,
  placed at the index pair that row `n` of an [8192, 2] index array holds; both columns of that array are
  `select (iota < 0) (iota + 8192) iota`, which is the row number, so update `n` lands at `(n, n)`, inside the matrix.
  Because every update writes the same value, the order of the updates does not matter and no two-updates-one-target
  argument is needed: an entry is minus infinity if some update targets it and the similarity otherwise.

  Results, at the extended reals: `masked_apply` (the masked matrix at (p, q) is minus infinity on the diagonal and the
  similarity off it), `rowmax_ge` (every entry of a row is at most the row's maximum) and `rowmax_attained` (the row's
  maximum is minus infinity or one of the row's entries).
-/
import proofs.«128488_j86157043957990_2_alg».proof.Proof.Gen.ReferenceIdeal.Read
import proofs.«128488_j86157043957990_2_alg».proof.Proof.LibScatterConst
import Idealize.ShloMosaic.Lib.ValueIdx
import Idealize.ShloMosaic.PureOps.Ideal.Laws

noncomputable section

namespace Cert.RefMask

open Cert.ReferenceIdeal Cert.ReferenceIdeal.Gen Cert.ReferenceIdeal.Read Idealize.ShloMosaic Idealize.ShloMosaic.ValueIdx
open Cert.ScatterConst

/-- The index word of row `p`: for `p < 8192` its signed reading is `p`. -/
theorem toInt_ofNat_row (p : Fin 8192) : (BitVec.ofNat 32 p.val).toInt = (p.val : Int) := by
  have hp := p.isLt
  rw [BitVec.toInt_eq_toNat_of_lt (by rw [BitVec.toNat_ofNat]; omega), BitVec.toNat_ofNat]
  congr 1; omega

/-- The first index column is the row number: `select (iota < 0) (iota + 8192) iota` at row `p` is `p`, the
    comparison being false for every row. -/
theorem rowIdx_apply (p : Fin 8192) : val_main_v12 (F := Ideal) (ix1 p) = BitVec.ofNat 32 p.val := by
  rw [val_main_v12_apply, val_main_v9_apply, val_main_v7_apply, val_main_v8_apply, val_main_c_apply]
  have h0 : IntOp.cmpi .slt (BitVec.ofNat 32 ((ix1 p : S8192.Idx) 0).val) 0#32 = 0#1 := by
    refine eq_zero_of_ne_one fun h => ?_
    have h' := IntOp.cmpi_slt.1 h
    rw [show ((ix1 p : S8192.Idx) 0).val = p.val from rfl, toInt_ofNat_row] at h'
    rw [show (0#32 : BitVec 32).toInt = 0 by decide] at h'
    omega
  rw [h0, select_zero]

/-- The second index column is the row number too. -/
theorem colIdx_apply (p : Fin 8192) : val_main_v17 (F := Ideal) (ix1 p) = BitVec.ofNat 32 p.val := by
  rw [val_main_v17_apply, val_main_v14_apply, val_main_v7_apply, val_main_v13_apply, val_main_c_1_apply]
  have h0 : IntOp.cmpi .slt (BitVec.ofNat 32 ((ix1 p : S8192.Idx) 0).val) 0#32 = 0#1 := by
    refine eq_zero_of_ne_one fun h => ?_
    have h' := IntOp.cmpi_slt.1 h
    rw [show ((ix1 p : S8192.Idx) 0).val = p.val from rfl, toInt_ofNat_row] at h'
    rw [show (0#32 : BitVec 32).toInt = 0 by decide] at h'
    omega
  rw [h0, select_zero]

/-- The scatter's index array holds the pair `(p, p)` in row `p`: both of its entries are the row number. -/
theorem pairIdx_apply (p : Fin 8192) (c : Fin 2) : val_main_v20 (F := Ideal) (ix2 p c) = BitVec.ofNat 32 p.val := by
  unfold val_main_v20
  match c with
  | ⟨0, _⟩ =>
    rw [concatenate_pair_apply_left (s₁ := S8192x1) (s₂ := S8192x1) (1 : Fin S8192x2.rank) _ _ _ (ix2 p (⟨0, by decide⟩ : Fin 2)) rfl (ix2 p (0 : Fin 1))
      (fun b => by match b with | ⟨0, _⟩ => rfl | ⟨1, _⟩ => rfl)]
    rw [val_main_v18_apply]
    exact rowIdx_apply p
  | ⟨1, _⟩ =>
    rw [concatenate_pair_apply_right (s₁ := S8192x1) (s₂ := S8192x1) (1 : Fin S8192x2.rank) _ _ _ (ix2 p (⟨1, by decide⟩ : Fin 2)) rfl rfl (ix2 p (0 : Fin 1))
      (fun b hb => by match b with | ⟨0, _⟩ => rfl | ⟨1, _⟩ => exact absurd rfl hb) rfl]
    rw [val_main_v19_apply]
    exact colIdx_apply p

/-- The scatter's window coordinate is `0` on both operand axes: both are inserted axes, the update is one element. -/
theorem window_eq (j : S8192.Idx) (a : Fin S8192x8192.rank) :
    scatter_S8192x8192_S8192x2_S8192_n_01_01_1.window j a = 0 := by
  unfold ScatterDims.window
  match a with
  | ⟨0, _⟩ => exact dif_neg (show (0 : Fin S8192x8192.rank) ∉ scatter_S8192x8192_S8192x2_S8192_n_01_01_1.sKept by decide)
  | ⟨1, _⟩ => exact dif_neg (show (1 : Fin S8192x8192.rank) ∉ scatter_S8192x8192_S8192x2_S8192_n_01_01_1.sKept by decide)

/-- Update `j` reads component `c` of its start index at entry `(j, c)` of the index array. -/
theorem siIdx_eq (j : S8192.Idx) (c : Fin scatter_S8192x8192_S8192x2_S8192_n_01_01_1.scatterDimsToOperandDims.length) :
    scatter_S8192x8192_S8192x2_S8192_n_01_01_1.siIdx j c
      = ix2 (j 0 : Fin 8192) (c.cast (rfl : scatter_S8192x8192_S8192x2_S8192_n_01_01_1.scatterDimsToOperandDims.length = 2)) := by
  funext b
  match b with
  | ⟨0, _⟩ => exact Fin.ext rfl
  | ⟨1, _⟩ => exact Fin.ext rfl

/-- The scatter's start on the first operand axis, for update `j`, is `j`'s row number. -/
theorem start_eq0 (j : S8192.Idx) :
    scatter_S8192x8192_S8192x2_S8192_n_01_01_1.start j (val_main_v20 (F := Ideal)) (0 : Fin S8192x8192.rank)
      = (((j 0 : Fin 8192).val : Nat) : Int) := by
  unfold ScatterDims.start
  rw [dif_pos (show (0 : Fin S8192x8192.rank) ∈ scatter_S8192x8192_S8192x2_S8192_n_01_01_1.scatterDimsToOperandDims by decide),
    siIdx_eq]
  exact (congrArg BitVec.toInt (pairIdx_apply _ _)).trans (toInt_ofNat_row _)

/-- The scatter's start on the second operand axis, for update `j`, is `j`'s row number too. -/
theorem start_eq1 (j : S8192.Idx) :
    scatter_S8192x8192_S8192x2_S8192_n_01_01_1.start j (val_main_v20 (F := Ideal)) (1 : Fin S8192x8192.rank)
      = (((j 0 : Fin 8192).val : Nat) : Int) := by
  unfold ScatterDims.start
  rw [dif_pos (show (1 : Fin S8192x8192.rank) ∈ scatter_S8192x8192_S8192x2_S8192_n_01_01_1.scatterDimsToOperandDims by decide),
    siIdx_eq]
  exact (congrArg BitVec.toInt (pairIdx_apply _ _)).trans (toInt_ofNat_row _)

/-- The scatter's start on either operand axis, for update `j`, is `j`'s row number. -/
theorem start_eq (j : S8192.Idx) (a : Fin S8192x8192.rank) :
    scatter_S8192x8192_S8192x2_S8192_n_01_01_1.start j (val_main_v20 (F := Ideal)) a = (((j 0 : Fin 8192).val : Nat) : Int) := by
  match a with
  | ⟨0, _⟩ => exact start_eq0 j
  | ⟨1, _⟩ => exact start_eq1 j

/-- Update `j` lands on the diagonal entry of its row, which is inside the operand. -/
theorem resultIdx_eq (j : S8192.Idx) :
    scatter_S8192x8192_S8192x2_S8192_n_01_01_1.resultIdx? j (val_main_v20 (F := Ideal))
      = some (ix2 (j 0 : Fin 8192) (j 0 : Fin 8192)) := by
  have hj : ((j 0 : Fin 8192).val) < 8192 := (j 0 : Fin 8192).isLt
  have h : ∀ a, 0 ≤ scatter_S8192x8192_S8192x2_S8192_n_01_01_1.start j (val_main_v20 (F := Ideal)) a
        + scatter_S8192x8192_S8192x2_S8192_n_01_01_1.window j a
      ∧ scatter_S8192x8192_S8192x2_S8192_n_01_01_1.start j (val_main_v20 (F := Ideal)) a
        + scatter_S8192x8192_S8192x2_S8192_n_01_01_1.window j a < S8192x8192.size a := by
    intro a
    rw [start_eq, window_eq]
    match a with
    | ⟨0, _⟩ =>
      show 0 ≤ (((j 0 : Fin 8192).val : Nat) : Int) + ((0 : Nat) : Int) ∧ (((j 0 : Fin 8192).val : Nat) : Int) + ((0 : Nat) : Int) < ((8192 : Nat) : Int)
      omega
    | ⟨1, _⟩ =>
      show 0 ≤ (((j 0 : Fin 8192).val : Nat) : Int) + ((0 : Nat) : Int) ∧ (((j 0 : Fin 8192).val : Nat) : Int) + ((0 : Nat) : Int) < ((8192 : Nat) : Int)
      omega
  unfold ScatterDims.resultIdx?
  rw [dif_pos h]
  refine congrArg some (funext fun a => Fin.ext ?_)
  show (scatter_S8192x8192_S8192x2_S8192_n_01_01_1.start j (val_main_v20 (F := Ideal)) a
        + scatter_S8192x8192_S8192x2_S8192_n_01_01_1.window j a).toNat = _
  rw [start_eq, window_eq]
  match a with
  | ⟨0, _⟩ =>
    show ((((j 0 : Fin 8192).val : Nat) : Int) + ((0 : Nat) : Int)).toNat = (j 0 : Fin 8192).val
    omega
  | ⟨1, _⟩ =>
    show ((((j 0 : Fin 8192).val : Nat) : Int) + ((0 : Nat) : Int)).toNat = (j 0 : Fin 8192).val
    omega

/-- The pattern `0xFF800000` denotes minus infinity, the bottom of the extended reals. -/
theorem negInf_eq : FloatOps.ofBits (F := Ideal) .f32 0xFF800000#32 = (⊥ : EReal) := by
  simp [Ideal.ofBits, Ideal.ieee]

/-- The masked similarity matrix: the scatter overwrites the diagonal of the similarity matrix with minus infinity and
    leaves every other entry alone. Update `n` writes minus infinity at `(n, n)`, so the entry `(p, q)` is the target of
    some update exactly when `p = q`. -/
theorem masked_apply (x0 : (⟨S8192x1024, .f32⟩ : BufTy).Contents (Elt Ideal)) (p q : Fin 8192) :
    val_main_v22 (F := Ideal) x0 (ix2 p q) = if p = q then (⊥ : EReal) else val_main_v6 (F := Ideal) x0 (ix2 p q) := by
  unfold val_main_v22
  generalize val_main_v6 (F := Ideal) x0 = y
  have hupd : ∀ j, val_main_v21 (F := Ideal) j = (⊥ : EReal) := fun j => by
    rw [val_main_v21_apply, val_main_cst_3_apply]
    exact negInf_eq
  rcases scatter_const_apply scatter_S8192x8192_S8192x2_S8192_n_01_01_1 y (val_main_v20 (F := Ideal))
    (val_main_v21 (F := Ideal)) (⊥ : EReal) hupd (ix2 p q) with ⟨h1, n, -, hn⟩ | ⟨h1, h2⟩
  · rw [h1]
    rw [resultIdx_eq] at hn
    have e := Option.some.inj hn
    have e0 : ((S8192.rowMajor.symm n) 0 : Fin 8192) = p := congrFun e 0
    have e1 : ((S8192.rowMajor.symm n) 0 : Fin 8192) = q := congrFun e 1
    have hpq : p = q := e0.symm.trans e1
    rw [if_pos hpq]
  · rw [h1]
    by_cases hpq : p = q
    · subst hpq
      refine absurd ?_ (h2 (S8192.rowMajor (ix1 p)) (List.mem_finRange _))
      rw [Equiv.symm_apply_apply, resultIdx_eq]
      rfl
    · rw [if_neg hpq]

/-- The maximum, from minus infinity, over the second axis of an 8192 x 8192 array of extended reals: at row `p` it is
    the fold of the maximum over the columns `q` of the entries `(p, q)`. -/
theorem rowmax_eq_fold (y : (⟨S8192x8192, .f32⟩ : BufTy).Contents (Elt Ideal)) (p : Fin 8192) :
    Host.reduce FloatOps.maximumf y (val_main_cst_4 (F := Ideal)) reducesTo_S8192x8192_S8192_d1 h_S_ (ix1 p)
      = (Finset.univ : Finset (Fin 8192)).fold (FloatOps.maximumf (F := Ideal) (φ := .f32)) (⊥ : EReal)
          (fun q => y (ix2 p q)) := by
  rw [hostReduce_max_rows y (val_main_cst_4 (F := Ideal)) reducesTo_S8192x8192_S8192_d1 (by decide) h_S_ p,
    val_main_cst_4_apply, negInf_eq]
/-- Every entry of row `p` of the masked matrix is at most the row's maximum. -/
theorem rowmax_ge (x0 : (⟨S8192x1024, .f32⟩ : BufTy).Contents (Elt Ideal)) (p q : Fin 8192) :
    val_main_v22 (F := Ideal) x0 (ix2 p q) ≤ val_main_v23 (F := Ideal) x0 (ix1 p) := by
  unfold val_main_v23
  generalize val_main_v22 (F := Ideal) x0 = y
  rw [rowmax_eq_fold]
  exact le_fold_of_mem (β := EReal) _ (fun _ _ => rfl) ⊥ (fun q => y (ix2 p q)) Finset.univ q (Finset.mem_univ q)

/-- The row's maximum is minus infinity or is attained: it equals the masked matrix's entry at some column of the row. -/
theorem rowmax_attained (x0 : (⟨S8192x1024, .f32⟩ : BufTy).Contents (Elt Ideal)) (p : Fin 8192) :
    val_main_v23 (F := Ideal) x0 (ix1 p) = ⊥
      ∨ ∃ q : Fin 8192, val_main_v23 (F := Ideal) x0 (ix1 p) = val_main_v22 (F := Ideal) x0 (ix2 p q) := by
  unfold val_main_v23
  generalize val_main_v22 (F := Ideal) x0 = y
  rw [rowmax_eq_fold]
  rcases fold_eq_init_or_mem (β := EReal) _ (fun _ _ => rfl) ⊥ (fun q => y (ix2 p q)) Finset.univ with h | ⟨q, _, h⟩
  · exact Or.inl h
  · exact Or.inr ⟨q, h⟩

end Cert.RefMask

end
-- ==== Proof.InputFacts.lean ====
/-
  Numeric facts about the input array and the f32 constants of the claim, read at the extended reals.

  The precondition says `|x i| < +∞` at every element of the 8192 × 1024 array. At the extended reals the absolute
  value is `max x (-x)`, which is `⊤` at both infinities, so the strict comparison with `+∞ = ⊤` holds exactly at the
  real numbers: every element is a real. The constants are f32 bit patterns: sign bit, eight exponent bits (bias 127),
  twenty-three fraction bits; a normal pattern denotes `(2^23 + fraction) · 2^(exponent − 127 − 23)`.
-/
import proofs.«128488_j86157043957990_2_alg».proof.Pre_finite_inputs
import proofs.«128488_j86157043957990_2_alg».proof.Proof.Gen.Pre_finite_inputs
import Idealize.ShloMosaic.PureOps.Ideal.Laws
import Idealize.ShloMosaic.Lib.ValueIdx
import Idealize.ShloMosaic.Lib.ReduceAll
import Idealize.ShloMosaic.Lib.IdealHost

noncomputable section

namespace Cert.InputFacts

open Idealize.ShloMosaic
open Cert.Pre_finite_inputs (S8192x1024 S_)

/-- The rank-0 shape has exactly one index: a function out of the empty set of axes. -/
instance : Subsingleton S_.Idx := ⟨fun a b => funext fun d => d.elim0⟩

/-- An extended real whose absolute value `max a (-a)` is strictly below `+∞` (the f32 pattern `0x7F800000`) is a real
    number: at `⊥` and at `⊤` the absolute value is `⊤`, which is not below itself. -/
theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

/-- Under the precondition `all (|x| < +∞)` every element of the array is a real number: the conjunction over all
    8192 · 1024 elements being true gives the comparison at each element, and the comparison excludes both infinities. -/
theorem real_of_pre [Cert.Pre_finite_inputs.Facts] (x : FVec Ideal S8192x1024 .f32)
    (h : Cert.Pre_finite_inputs.fn (F := Ideal) x = fun _ => 1#1) : ∀ i, ∃ r : ℝ, x i = (r : EReal) := by
  intro i
  have h0 := congrFun h ValueIdx.ix0
  dsimp only [Cert.Pre_finite_inputs.fn] at h0
  have hi := Host.reduce_andi_all _ _ _ _ _ h0 i
  exact real_of_abs_lt_top (x i) hi

/-- The pattern `0x2B8CBCCC` has sign 0, exponent field 87 and fraction `0x0CBCCC = 834764`: the normal number
    `(2^23 + 834764) · 2^(87 − 127 − 23) = 9223372 · 2^(−63)` (the f32 nearest `10⁻¹²`). -/
theorem eps_key : Ideal.ofBits .f32 0x2B8CBCCC#32 = (((9223372 : ℝ) * (2 : ℝ) ^ (-63 : ℤ) : ℝ) : EReal) := by
  simp [Ideal.ofBits, Ideal.ieee, -EReal.coe_mul]

/-- The constant `0x2B8CBCCC` is a positive real number. -/
theorem eps_pos : ∃ e : ℝ, 0 < e ∧ Ideal.ofBits .f32 0x2B8CBCCC#32 = (e : EReal) :=
  ⟨_, by positivity, eps_key⟩

/-- The pattern `0x3F800000` (exponent field 127, fraction 0) is the real number one. -/
theorem one_eq : Ideal.ofBits .f32 0x3F800000#32 = ((1 : ℝ) : EReal) := by
  rw [Ideal.ofBits_one_f32]; norm_cast

/-- The all-zero pattern is zero. -/
theorem zero_eq : Ideal.ofBits .f32 0x00000000#32 = (0 : EReal) := Ideal.ofBits_zero_f32

/-- The pattern `0xFF800000` (sign 1, exponent field all ones, fraction 0) is `−∞`. -/
theorem ninf_eq : Ideal.ofBits .f32 0xFF800000#32 = (⊥ : EReal) := by
  simp [Ideal.ofBits, Ideal.ieee]

end Cert.InputFacts

end
-- ==== Proof.NormFacts.lean ====
/-
  The reference's row norms, normalised rows and similarities on real inputs, as real numbers.

  With every entry of the input a real number `a(p,d)`, the reference computes for each row `p` the clamped norm
  `ν(p) = max (√(Σ_d a(p,d)²)) ε` with `ε = 9223372 · 2^(−63) > 0`, then the normalised row `a(p,d) / ν(p)`, then the
  similarity `Σ_d (a(p,d) / ν(p)) · (a(q,d) / ν(q))` of rows `p` and `q`. On the extended reals each of these is the
  coercion of the real expression: a sum of real squares is a real that is not negative, so its square root is the real
  square root; the maximum of two reals is a real; `ν(p) ≥ ε > 0` is not zero, so the quotient is the real quotient;
  and a finite sum of reals is a real.
-/
import proofs.«128488_j86157043957990_2_alg».proof.Proof.Gen.ReferenceIdeal.Read
import Idealize.ShloMosaic.PureOps.Ideal.Laws
import Idealize.ShloMosaic.Lib.ValueIdx
import proofs.«128488_j86157043957990_2_alg».proof.Proof.InputFacts
import proofs.«128488_j86157043957990_2_alg».proof.Proof.LibSoftmaxShift

noncomputable section

open scoped BigOperators

namespace Cert.NormFacts

open Cert.ReferenceIdeal Cert.ReferenceIdeal.Read Idealize.ShloMosaic Idealize.ShloMosaic.ValueIdx

/-- The coercion of the reals into the extended reals commutes with a finite sum. -/
theorem coe_finsum {ι : Type*} (s : Finset ι) (f : ι → ℝ) :
    ((∑ k ∈ s, f k : ℝ) : EReal) = ∑ k ∈ s, (f k : EReal) :=
  Cert.Attn.coe_sum s f

/-- The f32 pattern `0x2B8CBCCC` (sign 0, exponent field 87, fraction 834764) is the normal number
    `(2^23 + 834764) · 2^(87 − 127 − 23) = 9223372 · 2^(−63)`. -/
theorem eps_key : Ideal.ofBits .f32 0x2B8CBCCC#32 = (((9223372 : ℝ) * (2 : ℝ) ^ (-63 : ℤ) : ℝ) : EReal) :=
  Cert.InputFacts.eps_key

/-- The clamped Euclidean norm of row `p`: the larger of `√(Σ_d a(p,d)²)` and the constant `9223372 · 2^(−63)`. -/
def nu (a : S8192x1024.Idx → ℝ) (p : Fin 8192) : ℝ :=
  max (Real.sqrt (∑ d : Fin 1024, a (ix2 p d) * a (ix2 p d))) (9223372 * (2:ℝ) ^ (-63 : ℤ))

/-- The clamped norm is positive, because the clamp is. -/
theorem nu_pos (a : S8192x1024.Idx → ℝ) (p : Fin 8192) : 0 < nu a p :=
  lt_of_lt_of_le (by positivity) (le_max_right _ _)

/-- On real entries the reference's clamped row norm `max (√(0 + Σ_d x(p,d)·x(p,d))) ε` is the real number `nu a p`:
    the sum of squares is a real that is not negative, so its square root is the real square root, and the maximum of two
    reals is a real. -/
theorem norm_eq (a : S8192x1024.Idx → ℝ) (p : Fin 8192) :
    val_main_v2 (F := Ideal) (fun y => ((a y : ℝ) : EReal)) (ix2 p 0) = ((nu a p : ℝ) : EReal) := by
  have hidx : ∀ k : Fin 1024, idx_main_call0_v1 (idx_main_call0_v2 (ix2 p 0)) k = ix2 p k := fun k =>
    funext fun c => Fin.ext (by match c with | ⟨0, _⟩ => rfl | ⟨1, _⟩ => rfl)
  rw [val_main_v2_apply, val_main_v0_apply, val_main_call0_v2_apply, val_main_call0_v1_apply, val_main_v1_apply,
    val_main_cst_apply, val_main_call0_cst_apply]
  simp only [val_main_call0_v0_apply, hidx, Ideal.mulf_def, Ideal.ofBits_def, Ideal.hostUnary_sqrt_def,
    Ideal.maximumf_def, Ideal.ofBits_zero_f32, zero_add, ← EReal.coe_mul, ← coe_finsum, Ideal.sqrt_coe, eps_key]
  rw [if_neg (not_lt.2 (Finset.sum_nonneg fun d _ => mul_self_nonneg _))]
  exact (EReal.coe_strictMono.monotone.map_max).symm

/-- On real entries the normalised entry `x(p,d) / norm(p)` is the real quotient: the norm is a real that is not zero. -/
theorem feat_eq (a : S8192x1024.Idx → ℝ) (p : Fin 8192) (d : Fin 1024) :
    val_main_v4 (F := Ideal) (fun y => ((a y : ℝ) : EReal)) (ix2 p d) = ((a (ix2 p d) / nu a p : ℝ) : EReal) := by
  have hidx : idx_main_v3 (ix2 p d) = ix2 p 0 :=
    funext fun c => Fin.ext (by match c with | ⟨0, _⟩ => rfl | ⟨1, _⟩ => rfl)
  rw [val_main_v4_apply, val_main_v3_apply, hidx, norm_eq, Ideal.hostDivf_def, Ideal.div_coe (nu_pos a p).ne',
    ← EReal.coe_mul, mul_one_div]

/-- On real entries the similarity of rows `p` and `q`, the dot product of the two normalised rows, is the real sum
    `Σ_d (a(p,d) / nu p) · (a(q,d) / nu q)`. -/
theorem sim_eq (a : S8192x1024.Idx → ℝ) (p q : Fin 8192) :
    val_main_v6 (F := Ideal) (fun y => ((a y : ℝ) : EReal)) (ix2 p q)
      = ((∑ d : Fin 1024, (a (ix2 p d) / nu a p) * (a (ix2 q d) / nu a q) : ℝ) : EReal) := by
  have hl : ∀ k : Fin 1024, lidx_main_v6 (ix2 p q) k = ix2 p k := fun k =>
    funext fun c => Fin.ext (by match c with | ⟨0, _⟩ => rfl | ⟨1, _⟩ => rfl)
  have hr : ∀ k : Fin 1024, idx_main_v5 (ridx_main_v6 (ix2 p q) k) = ix2 q k := fun k =>
    funext fun c => Fin.ext (by match c with | ⟨0, _⟩ => rfl | ⟨1, _⟩ => rfl)
  rw [val_main_v6_apply]
  simp only [val_main_v5_apply, hl, hr, feat_eq, ← EReal.coe_mul]
  exact (coe_finsum _ _).symm

end Cert.NormFacts

end
-- ==== Proof.RefBridge.lean ====
/-
  The reference's attention matrix and output are the specification's, on an input of real numbers.

  Row `p` of the reference: the similarities `σ(p,q) = Σ_d (a(p,d)/ν p)·(a(q,d)/ν q)` with the diagonal replaced by `−∞`,
  the row's maximum `M(p)`, the exponentials `e(p,q) = exp (s'(p,q) − M(p))`, and `A(p,q) = e(p,q) / (0 + Σ_k e(p,k))`.
  Every off-diagonal entry is a real, so `M(p)` is a real `μ`; then `e(p,q)` is 0 on the diagonal and `exp (σ(p,q) − μ)`
  off it, their sum is a positive real, and `A(p,q)` is the real softmax of the row under the shift `μ`. The
  specification's row is the real softmax of the same similarities under the shift 1 (its similarities are the dot
  product scaled afterwards by the two inverse norms, which is the dot product of the scaled rows). A softmax does not
  depend on its shift. The outputs are the same sums of attention entries against the input's columns.

  What the masking, the maximum's lower bound and the maximum's attainment say of the reference's stages is taken here
  as three hypotheses.
-/
import proofs.«128488_j86157043957990_2_alg».proof.Proof.Spec
import proofs.«128488_j86157043957990_2_alg».proof.Proof.NormFacts
import proofs.«128488_j86157043957990_2_alg».proof.Proof.InputFacts
import proofs.«128488_j86157043957990_2_alg».proof.Proof.LibSoftmaxShift
import proofs.«128488_j86157043957990_2_alg».proof.Proof.Gen.ReferenceIdeal.Read

noncomputable section

open scoped BigOperators

namespace Cert.RefBridge

open Cert.ReferenceIdeal Cert.ReferenceIdeal.Read Idealize.ShloMosaic Idealize.ShloMosaic.ValueIdx
open Cert.Attn (SND SNN mexp)

/-! ## The mathematics on one row, free of the programs -/

/-- Some column differs from `p`: column 1 if `p` is 0, else column 0. -/
theorem exists_ne (p : Fin 8192) : ∃ k : Fin 8192, p ≠ k := by
  by_cases h : p = 0
  · exact ⟨1, by rw [h]; decide⟩
  · exact ⟨0, h⟩

/-- The exponential of a masked entry shifted by a real `μ`: on the diagonal `exp (⊥ − μ) = exp ⊥ = 0`, off it
    `exp (σ q − μ)` on the reals. -/
theorem exp_masked (σ : Fin 8192 → ℝ) (p q : Fin 8192) (μ : ℝ) :
    Ideal.exp ((if p = q then (⊥ : EReal) else ((σ q : ℝ) : EReal)) - (μ : EReal)) = ((mexp σ p μ q : ℝ) : EReal) := by
  unfold Cert.Attn.mexp
  by_cases h : p = q
  · rw [if_pos h, if_pos h, EReal.bot_sub, Ideal.exp_bot, EReal.coe_zero]
  · rw [if_neg h, if_neg h, ← EReal.coe_sub, Ideal.exp_coe]

/-- A row maximum that is at least every masked entry, and is `⊥` or one of them, is a real number: an entry off the
    diagonal is a real, so the maximum is not `⊥`; then it is an entry, not the diagonal one, hence a real. -/
theorem real_of_rowmax (σ : Fin 8192 → ℝ) (p : Fin 8192) (V : Fin 8192 → EReal) (M : EReal)
    (hs : ∀ k, V k = if p = k then (⊥ : EReal) else ((σ k : ℝ) : EReal)) (hge : ∀ k, V k ≤ M)
    (hatt : M = ⊥ ∨ ∃ k, M = V k) : ∃ μ : ℝ, M = (μ : EReal) := by
  have hne : M ≠ ⊥ := by
    obtain ⟨k0, hk0⟩ := exists_ne p
    have h0 := hge k0
    rw [hs k0, if_neg hk0] at h0
    intro hM
    rw [hM] at h0
    exact absurd (le_bot_iff.1 h0) (EReal.coe_ne_bot _)
  rcases hatt with h | ⟨k, hk⟩
  · exact absurd h hne
  · rw [hs k] at hk
    by_cases hpk : p = k
    · rw [if_pos hpk] at hk; exact absurd hk hne
    · rw [if_neg hpk] at hk; exact ⟨σ k, hk⟩

/-- The softmax of a masked row on the extended reals, shifted by its maximum, is the real softmax shifted by 1. -/
theorem softmax_math (σ : Fin 8192 → ℝ) (p q : Fin 8192) (V : Fin 8192 → EReal) (M : EReal)
    (hs : ∀ k, V k = if p = k then (⊥ : EReal) else ((σ k : ℝ) : EReal)) (hge : ∀ k, V k ≤ M)
    (hatt : M = ⊥ ∨ ∃ k, M = V k) :
    Ideal.div (Ideal.exp (V q - max ⊥ M)) (0 + ∑ k : Fin 8192, Ideal.exp (V k - max ⊥ M))
      = ((mexp σ p 1 q / ∑ k : Fin 8192, mexp σ p 1 k : ℝ) : EReal) := by
  obtain ⟨μ, rfl⟩ := real_of_rowmax σ p V M hs hge hatt
  obtain ⟨k0, hk0⟩ := exists_ne p
  have hpos : 0 < ∑ k : Fin 8192, mexp σ p μ k := Cert.Attn.sum_mexp_pos σ p μ k0 hk0
  rw [max_eq_right bot_le, zero_add]
  simp only [hs, exp_masked]
  rw [← Cert.Attn.coe_sum, Cert.Attn.div_coe_coe _ hpos.ne', Cert.Attn.softmax_shift σ p μ 1 q]

/-! ## The reference's stages read at an index, for any input -/

/-- The exponentials: entry `(p,q)` is `exp (s'(p,q) − max (−∞) M(p))`, `s'` the masked similarities and `M` the row
    maxima. -/
theorem exp_read (X : SND.Idx → EReal) (p q : Fin 8192) :
    val_main_v29 (F := Ideal) X (ix2 p q)
      = Ideal.exp (val_main_v22 (F := Ideal) X (ix2 p q) - max ⊥ (val_main_v23 (F := Ideal) X (ix1 p))) := by
  have hidx : idx_main_v26 (idx_main_v27 (ix2 p q)) = ix1 p :=
    funext fun c => Fin.ext (by match c with | ⟨0, _⟩ => rfl)
  rw [val_main_v29_apply, val_main_v28_apply, val_main_v27_apply, val_main_v26_apply, val_main_v25_apply,
    val_main_v24_apply, val_main_cst_5_apply, hidx]
  generalize val_main_v22 (F := Ideal) X (ix2 p q) = s
  generalize val_main_v23 (F := Ideal) X (ix1 p) = m
  rw [Ideal.hostUnary_exp_def, Ideal.subf_def, Ideal.maximumf_def, Ideal.ofBits_def, Cert.InputFacts.ninf_eq]

/-- The row sums: `0 + Σ_k e(p,k)`. -/
theorem sum_read (X : SND.Idx → EReal) (p : Fin 8192) :
    val_main_v30 (F := Ideal) X (ix1 p) = 0 + ∑ k : Fin 8192, val_main_v29 (F := Ideal) X (ix2 p k) := by
  have hidx : ∀ k : Fin 8192, idx_main_v30 (ix1 p) k = ix2 p k := fun k =>
    funext fun c => Fin.ext (by match c with | ⟨0, _⟩ => rfl | ⟨1, _⟩ => rfl)
  rw [val_main_v30_apply, val_main_cst_6_apply, Ideal.ofBits_def, Cert.InputFacts.zero_eq]
  simp only [hidx]

/-- The attention entry: the exponential over its row's sum. -/
theorem attn_read (X : SND.Idx → EReal) (p q : Fin 8192) :
    val_main_v33 (F := Ideal) X (ix2 p q)
      = Ideal.div (val_main_v29 (F := Ideal) X (ix2 p q)) (val_main_v30 (F := Ideal) X (ix1 p)) := by
  have hidx : idx_main_v31 (idx_main_v32 (ix2 p q)) = ix1 p :=
    funext fun c => Fin.ext (by match c with | ⟨0, _⟩ => rfl)
  rw [val_main_v33_apply, val_main_v32_apply, val_main_v31_apply, hidx, Ideal.hostDivf_def]

/-- The three together: the reference's attention entry from the masked similarities and the row maximum. -/
theorem ref_attn_read (X : SND.Idx → EReal) (p q : Fin 8192) :
    val_main_v33 (F := Ideal) X (ix2 p q)
      = Ideal.div (Ideal.exp (val_main_v22 (F := Ideal) X (ix2 p q) - max ⊥ (val_main_v23 (F := Ideal) X (ix1 p))))
          (0 + ∑ k : Fin 8192,
            Ideal.exp (val_main_v22 (F := Ideal) X (ix2 p k) - max ⊥ (val_main_v23 (F := Ideal) X (ix1 p)))) := by
  rw [attn_read, sum_read]
  simp only [exp_read]

/-! ## The specification on real inputs -/

/-- The similarity of rows `p` and `q` of a real input: the dot product of the two normalised rows. -/
def sg (a : SND.Idx → ℝ) (p q : Fin 8192) : ℝ :=
  ∑ d : Fin 1024, (a (ix2 p d) / Cert.NormFacts.nu a p) * (a (ix2 q d) / Cert.NormFacts.nu a q)

/-- The inverse norm of a real row is the real `1 / ν p`: the norm is a real that is not zero. -/
theorem rinv_eq (a : SND.Idx → ℝ) (p : Fin 8192) :
    Cert.Attn.rinv (fun y => ((a y : ℝ) : EReal)) p = ((1 / Cert.NormFacts.nu a p : ℝ) : EReal) := by
  rw [Cert.Attn.rinv, Cert.NormFacts.norm_eq, Cert.InputFacts.one_eq,
    Cert.Attn.div_coe_coe 1 (Cert.NormFacts.nu_pos a p).ne']

/-- The weight of key `q` for row `p` of a real input is the real weight under the shift 1: the dot product scaled by
    the two inverse norms is the dot product of the two normalised rows. -/
theorem wt_eq (a : SND.Idx → ℝ) (p q : Fin 8192) :
    Cert.Attn.wt (fun y => ((a y : ℝ) : EReal)) p q = ((mexp (sg a p) p 1 q : ℝ) : EReal) := by
  unfold Cert.Attn.wt Cert.Attn.mexp sg
  by_cases h : p = q
  · rw [if_pos h, if_pos h, Cert.InputFacts.zero_eq, EReal.coe_zero]
  · rw [if_neg h, if_neg h, rinv_eq, rinv_eq, Cert.InputFacts.one_eq]
    simp only [← EReal.coe_mul, ← Cert.Attn.coe_sum, ← EReal.coe_sub, Ideal.exp_coe]
    rw [Cert.Attn.scaled_dot]

/-- The specification's attention entry on a real input is the real softmax under the shift 1. -/
theorem attn_spec (a : SND.Idx → ℝ) (p q : Fin 8192) :
    Cert.Attn.attn (fun y => ((a y : ℝ) : EReal)) (ix2 p q)
      = ((mexp (sg a p) p 1 q / ∑ k : Fin 8192, mexp (sg a p) p 1 k : ℝ) : EReal) := by
  obtain ⟨k0, hk0⟩ := exists_ne p
  have hpos : 0 < ∑ k : Fin 8192, mexp (sg a p) p 1 k := Cert.Attn.sum_mexp_pos _ p 1 k0 hk0
  show Ideal.div (Cert.Attn.wt _ p q) (∑ j' : Fin 8192, Cert.Attn.wt _ p j') = _
  simp only [wt_eq]
  rw [← Cert.Attn.coe_sum, Cert.Attn.div_coe_coe _ hpos.ne']

/-! ## The reference's attention and output are the specification's -/

/-- On an input of reals the reference's attention matrix is the specification's: both rows are softmaxes of the same
    real similarities off the diagonal, one shifted by the row's maximum and one by 1, and the shift cancels. -/
theorem ref_attn_eq (X : SND.Idx → EReal)
    (hmask : ∀ p q : Fin 8192, val_main_v22 (F := Ideal) X (ix2 p q)
      = if p = q then (⊥ : EReal) else val_main_v6 (F := Ideal) X (ix2 p q))
    (hge : ∀ p q : Fin 8192, val_main_v22 (F := Ideal) X (ix2 p q) ≤ val_main_v23 (F := Ideal) X (ix1 p))
    (hatt : ∀ p : Fin 8192, val_main_v23 (F := Ideal) X (ix1 p) = ⊥
      ∨ ∃ q : Fin 8192, val_main_v23 (F := Ideal) X (ix1 p) = val_main_v22 (F := Ideal) X (ix2 p q))
    (hfin : ∀ y, ∃ r : ℝ, X y = (r : EReal)) :
    val_main_v33 (F := Ideal) X = Cert.Attn.attn X := by
  choose a ha using hfin
  obtain rfl : X = fun y => ((a y : ℝ) : EReal) := funext ha
  funext y
  obtain ⟨p, q, rfl⟩ : ∃ p q, y = ix2 p q := ⟨y 0, y 1, eq_ix2 y⟩
  have hs : ∀ k : Fin 8192, val_main_v22 (F := Ideal) (fun y => ((a y : ℝ) : EReal)) (ix2 p k)
      = if p = k then (⊥ : EReal) else ((sg a p k : ℝ) : EReal) := fun k => by
    rw [hmask p k, Cert.NormFacts.sim_eq]
    rfl
  have hge' := hge p
  have hatt' := hatt p
  rw [ref_attn_read, attn_spec]
  generalize val_main_v23 (F := Ideal) (fun y => ((a y : ℝ) : EReal)) (ix1 p) = M at hge' hatt' ⊢
  generalize val_main_v22 (F := Ideal) (fun y => ((a y : ℝ) : EReal)) = W at hs hge' hatt' ⊢
  exact softmax_math (sg a p) p q (fun k => W (ix2 p k)) M hs hge' hatt'

/-- Hence the outputs agree: each is the attention row against the columns of the input. -/
theorem ref_out_eq (X : SND.Idx → EReal)
    (hmask : ∀ p q : Fin 8192, val_main_v22 (F := Ideal) X (ix2 p q)
      = if p = q then (⊥ : EReal) else val_main_v6 (F := Ideal) X (ix2 p q))
    (hge : ∀ p q : Fin 8192, val_main_v22 (F := Ideal) X (ix2 p q) ≤ val_main_v23 (F := Ideal) X (ix1 p))
    (hatt : ∀ p : Fin 8192, val_main_v23 (F := Ideal) X (ix1 p) = ⊥
      ∨ ∃ q : Fin 8192, val_main_v23 (F := Ideal) X (ix1 p) = val_main_v22 (F := Ideal) X (ix2 p q))
    (hfin : ∀ y, ∃ r : ℝ, X y = (r : EReal)) :
    val_main_v34 (F := Ideal) X = Cert.Attn.out X := by
  have hA := ref_attn_eq X hmask hge hatt hfin
  funext y
  obtain ⟨p, d, rfl⟩ : ∃ p d, y = ix2 p d := ⟨y 0, y 1, eq_ix2 y⟩
  have hl : ∀ k : Fin 8192, lidx_main_v34 (ix2 p d) k = ix2 p k := fun k =>
    funext fun c => Fin.ext (by match c with | ⟨0, _⟩ => rfl | ⟨1, _⟩ => rfl)
  have hr : ∀ k : Fin 8192, ridx_main_v34 (ix2 p d) k = ix2 k d := fun k =>
    funext fun c => Fin.ext (by match c with | ⟨0, _⟩ => rfl | ⟨1, _⟩ => rfl)
  show val_main_v34 (F := Ideal) X (ix2 p d) = ∑ j : Fin 8192, Cert.Attn.attn X (ix2 p j) * X (ix2 j d)
  rw [val_main_v34_apply, hA]
  simp only [hl, hr]

end Cert.RefBridge

end
-- ==== Proof.lean ====
/-
  Cosine-similarity self-attention with the diagonal masked: a tiled kernel against its plain reference, equal on the
  extended reals for every finite input.

  Both programs take X [8192, 1024], clamp each row's norm from below, and form for every pair of rows the cosine
  similarity s(i,j); row i's attention weights are proportional to exp s(i,j) over j ≠ i and sum to one, and the output
  is the attention matrix times X.  They differ in three places, none of which changes a value when every entry is a
  real number.  The kernel scales the raw dot products by the two inverse norms where the reference divides the rows
  first (Proof/LibSoftmaxShift.lean, scaled_dot).  The kernel subtracts the constant 1 inside the exponential where the
  reference subtracts the row's maximum; a common shift of a row multiplies every weight and their sum by one positive
  factor, which cancels (softmax_shift) — only that the maximum is a real number is used, and it is, being at least an
  off-diagonal similarity and attained.  The kernel sets the diagonal weight to 0 after the exponential where the
  reference writes -∞ on the diagonal before it, and exp (-∞ - μ) = 0.  Changes of float format are the identity here.

  The modules: Spec.lean states the result as two whole-array functions of X; KernelEntry.lean reads the kernel body's
  two stored blocks entry by entry; KernelBlocks.lean, KernelAttn.lean and KernelOut.lean carry the blocks of the 64
  grid points to the two result arrays; RefMask.lean reads the reference's diagonal overwrite and row maximum;
  NormFacts.lean and InputFacts.lean make the norms positive reals and the inputs reals under the precondition;
  RefBridge.lean shows the reference's two results are the functions of Spec.lean.  The three frames are the generated
  ones (the reference's is its generated run with the results dropped), and the ideal pass rewrote nothing.
-/
import proofs.«128488_j86157043957990_2_alg».proof.Defs
import proofs.«128488_j86157043957990_2_alg».proof.Proof.Gen.Kernel
import proofs.«128488_j86157043957990_2_alg».proof.Proof.Gen.Kernel.Skeleton
import proofs.«128488_j86157043957990_2_alg».proof.Proof.Gen.Kernel.Launch
import proofs.«128488_j86157043957990_2_alg».proof.Proof.Gen.Kernel.Points
import proofs.«128488_j86157043957990_2_alg».proof.Proof.Gen.Kernel.Frame
import proofs.«128488_j86157043957990_2_alg».proof.Proof.Gen.KernelIdeal
import proofs.«128488_j86157043957990_2_alg».proof.Proof.Gen.KernelIdeal.Skeleton
import proofs.«128488_j86157043957990_2_alg».proof.Proof.Gen.KernelIdeal.Launch
import proofs.«128488_j86157043957990_2_alg».proof.Proof.Gen.KernelIdeal.Points
import proofs.«128488_j86157043957990_2_alg».proof.Proof.Gen.KernelIdeal.Frame
import proofs.«128488_j86157043957990_2_alg».proof.Proof.Gen.ReferenceIdeal
import proofs.«128488_j86157043957990_2_alg».proof.Proof.Gen.Pre_finite_inputs
import proofs.«128488_j86157043957990_2_alg».proof.Proof.Gen.KernelIdeal.Value
import proofs.«128488_j86157043957990_2_alg».proof.Proof.Gen.ReferenceIdeal.Run
import proofs.«128488_j86157043957990_2_alg».proof.Proof.Gen.ReferenceIdeal.Read
import proofs.«128488_j86157043957990_2_alg».proof.Proof.KernelRun
import proofs.«128488_j86157043957990_2_alg».proof.Proof.RefMask
import proofs.«128488_j86157043957990_2_alg».proof.Proof.InputFacts
import proofs.«128488_j86157043957990_2_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the reference: its run, with what it says of the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- On the extended reals, from memories that agree on a finite input, the kernel ends with the output and the
    attention matrix of Spec.lean and so does the reference. -/
theorem algebraic : Cert.algebraic_KernelIdeal_ReferenceIdeal := by
  intro m ρ m' ρ' hpre hagree
  refine ⟨_, _, Cert.KernelRun.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v34_eq, hagree c]
    exact Cert.RefBridge.ref_out_eq _ (Cert.RefMask.masked_apply _) (Cert.RefMask.rowmax_ge _)
      (Cert.RefMask.rowmax_attained _) (Cert.InputFacts.real_of_pre _ (hpre c))
  · rw [(h c).2.1, Cert.ReferenceIdeal.Read.val_main_v33_eq, hagree c]
    exact Cert.RefBridge.ref_attn_eq _ (Cert.RefMask.masked_apply _) (Cert.RefMask.rowmax_ge _)
      (Cert.RefMask.rowmax_attained _) (Cert.InputFacts.real_of_pre _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
